-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S1024x64 : Shape := ⟨2, ![1024, 64]⟩
abbrev S1024 : Shape := ⟨1, ![1024]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 113
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .bf16⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x64, .bf16⟩
  | .hbm, ⟨43, _⟩ => ⟨S1700000x64, .f32⟩
  | .hbm, ⟨44, _⟩ => ⟨S_, .f32⟩
  | .hbm, ⟨45, _⟩ => ⟨S100000x64, .f32⟩
  | .hbm, ⟨46, _⟩ => ⟨S1700000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S100000x64, .bf16⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .bf16⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S100000x64, .bf16⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .bf16⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S1024x64, .f32⟩
  | .hbm, ⟨95, _⟩ => ⟨S100000x1, .i32⟩
  | .hbm, ⟨96, _⟩ => ⟨S1024x64, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S1024, .f32⟩
  | .hbm, ⟨101, _⟩ => ⟨S100000x1, .i32⟩
  | .hbm, ⟨102, _⟩ => ⟨S1024, .f32⟩
  | .hbm, ⟨103, _⟩ => ⟨S_, .f32⟩
  | .hbm, ⟨104, _⟩ => ⟨S1024, .f32⟩
  | .hbm, ⟨105, _⟩ => ⟨S1024, .f32⟩
  | .hbm, ⟨106, _⟩ => ⟨S1024x1, .f32⟩
  | .hbm, ⟨107, _⟩ => ⟨S1024x64, .f32⟩
  | .hbm, ⟨108, _⟩ => ⟨S1024x64, .f32⟩
  | .hbm, ⟨109, _⟩ => ⟨S1024x10, .f32⟩
  | .hbm, ⟨110, _⟩ => ⟨S1x10, .f32⟩
  | .hbm, ⟨111, _⟩ => ⟨S1024x10, .f32⟩
  | .hbm, ⟨112, _⟩ => ⟨S1024x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S5000x1, .f32⟩
  | .local _ .vmem, ⟨11, _⟩ => ⟨S5000x1, .f32⟩
  | .local _ .vmem, ⟨12, _⟩ => ⟨S5000x64, .bf16⟩
  | .local _ .vmem, ⟨13, _⟩ => ⟨S5000x64, .bf16⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x1, .f32⟩
  | .local _ .vmem, ⟨18, _⟩ => ⟨S5000x1, .f32⟩
  | .local _ .vmem, ⟨19, _⟩ => ⟨S5000x64, .bf16⟩
  | .local _ .vmem, ⟨20, _⟩ => ⟨S5000x64, .bf16⟩
  | .local _ .vmem, ⟨21, _⟩ => ⟨S1024x64, .f32⟩
  | .local _ .vmem, ⟨22, _⟩ => ⟨S64x10, .f32⟩
  | .local _ .vmem, ⟨23, _⟩ => ⟨S1024x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem2_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1024x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S64x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x10_S64x10_0_0 : ∀ a, (![0, 0] : Fin 2 → Nat) a + S64x10.size a ≤ S64x10.size a
  h_S64x10 : 0 < S64x10.numel
  inb_S1024x10_S1024x10_0_0 : ∀ a, (![0, 0] : Fin 2 → Nat) a + S1024x10.size a ≤ S1024x10.size a
  h_S1024x10 : 0 < S1024x10.numel
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .bf16 = 32 ∨ (Rect.block (s := S100000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .bf16 = 32 ∨ (Rect.block (s := S100000x64) S5000x64.size (cc2_transform_3 i) (hinb2_3 i)).WholeWords (EltTy.packing .bf16)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S1024x64.size a
  hwx3_0 : ∀ i : grid3.Coords, EltTy.bits .f32 = 32 ∨ (Rect.block (s := S1024x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x10.size a ≤ S64x10.size a
  hwx3_1 : ∀ i : grid3.Coords, EltTy.bits .f32 = 32 ∨ (Rect.block (s := S64x10) S64x10.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1024x10.size a ≤ S1024x10.size a
  hwx3_2 : ∀ i : grid3.Coords, EltTy.bits .f32 = 32 ∨ (Rect.block (s := S1024x10) S1024x10.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S1024x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1024x10.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 169
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x1, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S1x64, .f32⟩
  | 108 => ⟨S100000x64, .f32⟩
  | 109 => ⟨S100000x64, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000, .f32⟩
  | 1 => ⟨S1700000, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x64, .f32⟩
  | 11 => ⟨S1700000x1, .f32⟩
  | 12 => ⟨S1700000x64, .f32⟩
  | 13 => ⟨S1700000x64, .f32⟩
  | 14 => ⟨S_, .f32⟩
  | 15 => ⟨S100000x64, .f32⟩
  | 16 => ⟨S1700000x1, .i32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S1024x64, .f32⟩
  | 23 => ⟨S100000x1, .i32⟩
  | 24 => ⟨S1024x64, .f32⟩
  | 25 => ⟨S_, .f32⟩
  | 26 => ⟨S100000, .f32⟩
  | 27 => ⟨S_, .f32⟩
  | 28 => ⟨S1024, .f32⟩
  | 29 => ⟨S100000x1, .i32⟩
  | 30 => ⟨S1024, .f32⟩
  | 31 => ⟨S_, .f32⟩
  | 32 => ⟨S1024, .f32⟩
  | 33 => ⟨S1024, .f32⟩
  | 34 => ⟨S1024x1, .f32⟩
  | 35 => ⟨S1024x64, .f32⟩
  | 36 => ⟨S1024x64, .f32⟩
  | 37 => ⟨S1024x10, .f32⟩
  | 38 => ⟨S1x10, .f32⟩
  | 39 => ⟨S1024x10, .f32⟩
  | 40 => ⟨S1024x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_16 : Ref sig .tc := ⟨.hbm, 111, rfl⟩
abbrev main_v80 : Ref sig .tc := ⟨.hbm, 112, rfl⟩
abbrev main_v81 : Ref sig .tc := ⟨.hbm, 113, rfl⟩
abbrev main_c_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_18 : Ref sig .tc := ⟨.hbm, 120, rfl⟩
abbrev main_v87 : Ref sig .tc := ⟨.hbm, 121, rfl⟩
abbrev main_v88 : Ref sig .tc := ⟨.hbm, 122, rfl⟩
abbrev main_c_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_20 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_23 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩
abbrev main_cst_25 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

class Facts : Prop extends Facts₀ where

variable [Facts]
-- ==== Proof.KernelCarry.lean ====
import proofs.«132979_j77120432767264_2_alg».proof.Proof.Gen.KernelIdeal.Frame

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that none of a stretch's host operations writes holds after the stretch what it held before. -/
macro "host_carry" : tactic => `(tactic| exact StableHlo.after_of_forall_not_mem _ _ (List.forall_iff_forall_mem.mp (by
  simp only [hostOps0, hostOps0_1, hostOps0_2, hostOps1, hostOps2, hostOps3, hostOps4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable (c : Dev nD)

/-! ## One boundary at a time: a buffer the segment does not write keeps its contents -/
theorem s3_main_arg0 : W3 m ρ c (Proc.devRef .tc main_arg0) = W2 m ρ c (Proc.devRef .tc main_arg0) := by host_carry
theorem s2_main_arg0 : W2 m ρ c (Proc.devRef .tc main_arg0) = W1 m ρ c (Proc.devRef .tc main_arg0) := by host_carry
theorem s1_main_arg0 : W1 m ρ c (Proc.devRef .tc main_arg0) = W0 m ρ c (Proc.devRef .tc main_arg0) := by host_carry
theorem s3_main_arg3 : W3 m ρ c (Proc.devRef .tc main_arg3) = W2 m ρ c (Proc.devRef .tc main_arg3) := by host_carry
theorem s2_main_arg3 : W2 m ρ c (Proc.devRef .tc main_arg3) = W1 m ρ c (Proc.devRef .tc main_arg3) := by host_carry
theorem s1_main_arg3 : W1 m ρ c (Proc.devRef .tc main_arg3) = W0 m ρ c (Proc.devRef .tc main_arg3) := by host_carry
theorem s4_main_arg4 : W4 m ρ c (Proc.devRef .tc main_arg4) = W3 m ρ c (Proc.devRef .tc main_arg4) := W4_of_ne m ρ c main_arg4 (by decide)
theorem s3_main_arg4 : W3 m ρ c (Proc.devRef .tc main_arg4) = W2 m ρ c (Proc.devRef .tc main_arg4) := by host_carry
theorem s2_main_arg4 : W2 m ρ c (Proc.devRef .tc main_arg4) = W1 m ρ c (Proc.devRef .tc main_arg4) := by host_carry
theorem s1_main_arg4 : W1 m ρ c (Proc.devRef .tc main_arg4) = W0 m ρ c (Proc.devRef .tc main_arg4) := by host_carry
theorem s5_main_arg5 : W5 m ρ c (Proc.devRef .tc main_arg5) = W4 m ρ c (Proc.devRef .tc main_arg5) := by host_carry
theorem s4_main_arg5 : W4 m ρ c (Proc.devRef .tc main_arg5) = W3 m ρ c (Proc.devRef .tc main_arg5) := W4_of_ne m ρ c main_arg5 (by decide)
theorem s3_main_arg5 : W3 m ρ c (Proc.devRef .tc main_arg5) = W2 m ρ c (Proc.devRef .tc main_arg5) := by host_carry
theorem s2_main_arg5 : W2 m ρ c (Proc.devRef .tc main_arg5) = W1 m ρ c (Proc.devRef .tc main_arg5) := by host_carry
theorem s1_main_arg5 : W1 m ρ c (Proc.devRef .tc main_arg5) = W0 m ρ c (Proc.devRef .tc main_arg5) := by host_carry
theorem s6_main_arg6 : W6 m ρ c (Proc.devRef .tc main_arg6) = W5 m ρ c (Proc.devRef .tc main_arg6) := W6_of_ne m ρ c main_arg6 (by decide)
theorem s5_main_arg6 : W5 m ρ c (Proc.devRef .tc main_arg6) = W4 m ρ c (Proc.devRef .tc main_arg6) := by host_carry
theorem s4_main_arg6 : W4 m ρ c (Proc.devRef .tc main_arg6) = W3 m ρ c (Proc.devRef .tc main_arg6) := W4_of_ne m ρ c main_arg6 (by decide)
theorem s3_main_arg6 : W3 m ρ c (Proc.devRef .tc main_arg6) = W2 m ρ c (Proc.devRef .tc main_arg6) := by host_carry
theorem s2_main_arg6 : W2 m ρ c (Proc.devRef .tc main_arg6) = W1 m ρ c (Proc.devRef .tc main_arg6) := by host_carry
theorem s1_main_arg6 : W1 m ρ c (Proc.devRef .tc main_arg6) = W0 m ρ c (Proc.devRef .tc main_arg6) := by host_carry
theorem s7_main_arg7 : W7 m ρ c (Proc.devRef .tc main_arg7) = W6 m ρ c (Proc.devRef .tc main_arg7) := by host_carry
theorem s6_main_arg7 : W6 m ρ c (Proc.devRef .tc main_arg7) = W5 m ρ c (Proc.devRef .tc main_arg7) := W6_of_ne m ρ c main_arg7 (by decide)
theorem s5_main_arg7 : W5 m ρ c (Proc.devRef .tc main_arg7) = W4 m ρ c (Proc.devRef .tc main_arg7) := by host_carry
theorem s4_main_arg7 : W4 m ρ c (Proc.devRef .tc main_arg7) = W3 m ρ c (Proc.devRef .tc main_arg7) := W4_of_ne m ρ c main_arg7 (by decide)
theorem s3_main_arg7 : W3 m ρ c (Proc.devRef .tc main_arg7) = W2 m ρ c (Proc.devRef .tc main_arg7) := by host_carry
theorem s2_main_arg7 : W2 m ρ c (Proc.devRef .tc main_arg7) = W1 m ρ c (Proc.devRef .tc main_arg7) := by host_carry
theorem s1_main_arg7 : W1 m ρ c (Proc.devRef .tc main_arg7) = W0 m ρ c (Proc.devRef .tc main_arg7) := by host_carry
theorem s8_main_arg8 : W8 m ρ c (Proc.devRef .tc main_arg8) = W7 m ρ c (Proc.devRef .tc main_arg8) := W8_of_ne m ρ c main_arg8 (by decide)
theorem s7_main_arg8 : W7 m ρ c (Proc.devRef .tc main_arg8) = W6 m ρ c (Proc.devRef .tc main_arg8) := by host_carry
theorem s6_main_arg8 : W6 m ρ c (Proc.devRef .tc main_arg8) = W5 m ρ c (Proc.devRef .tc main_arg8) := W6_of_ne m ρ c main_arg8 (by decide)
theorem s5_main_arg8 : W5 m ρ c (Proc.devRef .tc main_arg8) = W4 m ρ c (Proc.devRef .tc main_arg8) := by host_carry
theorem s4_main_arg8 : W4 m ρ c (Proc.devRef .tc main_arg8) = W3 m ρ c (Proc.devRef .tc main_arg8) := W4_of_ne m ρ c main_arg8 (by decide)
theorem s3_main_arg8 : W3 m ρ c (Proc.devRef .tc main_arg8) = W2 m ρ c (Proc.devRef .tc main_arg8) := by host_carry
theorem s2_main_arg8 : W2 m ρ c (Proc.devRef .tc main_arg8) = W1 m ρ c (Proc.devRef .tc main_arg8) := by host_carry
theorem s1_main_arg8 : W1 m ρ c (Proc.devRef .tc main_arg8) = W0 m ρ c (Proc.devRef .tc main_arg8) := by host_carry
theorem s8_main_arg2 : W8 m ρ c (Proc.devRef .tc main_arg2) = W7 m ρ c (Proc.devRef .tc main_arg2) := W8_of_ne m ρ c main_arg2 (by decide)
theorem s7_main_arg2 : W7 m ρ c (Proc.devRef .tc main_arg2) = W6 m ρ c (Proc.devRef .tc main_arg2) := by host_carry
theorem s6_main_arg2 : W6 m ρ c (Proc.devRef .tc main_arg2) = W5 m ρ c (Proc.devRef .tc main_arg2) := W6_of_ne m ρ c main_arg2 (by decide)
theorem s5_main_arg2 : W5 m ρ c (Proc.devRef .tc main_arg2) = W4 m ρ c (Proc.devRef .tc main_arg2) := by host_carry
theorem s4_main_arg2 : W4 m ρ c (Proc.devRef .tc main_arg2) = W3 m ρ c (Proc.devRef .tc main_arg2) := W4_of_ne m ρ c main_arg2 (by decide)
theorem s3_main_arg2 : W3 m ρ c (Proc.devRef .tc main_arg2) = W2 m ρ c (Proc.devRef .tc main_arg2) := by host_carry
theorem s2_main_arg2 : W2 m ρ c (Proc.devRef .tc main_arg2) = W1 m ρ c (Proc.devRef .tc main_arg2) := by host_carry
theorem s1_main_arg2 : W1 m ρ c (Proc.devRef .tc main_arg2) = W0 m ρ c (Proc.devRef .tc main_arg2) := by host_carry
theorem s9_main_arg9 : W9 m ρ c (Proc.devRef .tc main_arg9) = W8 m ρ c (Proc.devRef .tc main_arg9) := by host_carry
theorem s8_main_arg9 : W8 m ρ c (Proc.devRef .tc main_arg9) = W7 m ρ c (Proc.devRef .tc main_arg9) := W8_of_ne m ρ c main_arg9 (by decide)
theorem s7_main_arg9 : W7 m ρ c (Proc.devRef .tc main_arg9) = W6 m ρ c (Proc.devRef .tc main_arg9) := by host_carry
theorem s6_main_arg9 : W6 m ρ c (Proc.devRef .tc main_arg9) = W5 m ρ c (Proc.devRef .tc main_arg9) := W6_of_ne m ρ c main_arg9 (by decide)
theorem s5_main_arg9 : W5 m ρ c (Proc.devRef .tc main_arg9) = W4 m ρ c (Proc.devRef .tc main_arg9) := by host_carry
theorem s4_main_arg9 : W4 m ρ c (Proc.devRef .tc main_arg9) = W3 m ρ c (Proc.devRef .tc main_arg9) := W4_of_ne m ρ c main_arg9 (by decide)
theorem s3_main_arg9 : W3 m ρ c (Proc.devRef .tc main_arg9) = W2 m ρ c (Proc.devRef .tc main_arg9) := by host_carry
theorem s2_main_arg9 : W2 m ρ c (Proc.devRef .tc main_arg9) = W1 m ρ c (Proc.devRef .tc main_arg9) := by host_carry
theorem s1_main_arg9 : W1 m ρ c (Proc.devRef .tc main_arg9) = W0 m ρ c (Proc.devRef .tc main_arg9) := by host_carry
theorem s10_main_arg10 : W10 m ρ c (Proc.devRef .tc main_arg10) = W9 m ρ c (Proc.devRef .tc main_arg10) := W10_of_ne m ρ c main_arg10 (by decide)
theorem s9_main_arg10 : W9 m ρ c (Proc.devRef .tc main_arg10) = W8 m ρ c (Proc.devRef .tc main_arg10) := by host_carry
theorem s8_main_arg10 : W8 m ρ c (Proc.devRef .tc main_arg10) = W7 m ρ c (Proc.devRef .tc main_arg10) := W8_of_ne m ρ c main_arg10 (by decide)
theorem s7_main_arg10 : W7 m ρ c (Proc.devRef .tc main_arg10) = W6 m ρ c (Proc.devRef .tc main_arg10) := by host_carry
theorem s6_main_arg10 : W6 m ρ c (Proc.devRef .tc main_arg10) = W5 m ρ c (Proc.devRef .tc main_arg10) := W6_of_ne m ρ c main_arg10 (by decide)
theorem s5_main_arg10 : W5 m ρ c (Proc.devRef .tc main_arg10) = W4 m ρ c (Proc.devRef .tc main_arg10) := by host_carry
theorem s4_main_arg10 : W4 m ρ c (Proc.devRef .tc main_arg10) = W3 m ρ c (Proc.devRef .tc main_arg10) := W4_of_ne m ρ c main_arg10 (by decide)
theorem s3_main_arg10 : W3 m ρ c (Proc.devRef .tc main_arg10) = W2 m ρ c (Proc.devRef .tc main_arg10) := by host_carry
theorem s2_main_arg10 : W2 m ρ c (Proc.devRef .tc main_arg10) = W1 m ρ c (Proc.devRef .tc main_arg10) := by host_carry
theorem s1_main_arg10 : W1 m ρ c (Proc.devRef .tc main_arg10) = W0 m ρ c (Proc.devRef .tc main_arg10) := by host_carry
theorem s8_main_v3 : W8 m ρ c (Proc.devRef .tc main_v3) = W7 m ρ c (Proc.devRef .tc main_v3) := W8_of_ne m ρ c main_v3 (by decide)
theorem s7_main_v3 : W7 m ρ c (Proc.devRef .tc main_v3) = W6 m ρ c (Proc.devRef .tc main_v3) := by host_carry
theorem s6_main_v3 : W6 m ρ c (Proc.devRef .tc main_v3) = W5 m ρ c (Proc.devRef .tc main_v3) := W6_of_ne m ρ c main_v3 (by decide)
theorem s5_main_v3 : W5 m ρ c (Proc.devRef .tc main_v3) = W4 m ρ c (Proc.devRef .tc main_v3) := by host_carry
theorem s4_main_v3 : W4 m ρ c (Proc.devRef .tc main_v3) = W3 m ρ c (Proc.devRef .tc main_v3) := W4_of_ne m ρ c main_v3 (by decide)
theorem s3_main_v3 : W3 m ρ c (Proc.devRef .tc main_v3) = W2 m ρ c (Proc.devRef .tc main_v3) := by host_carry
theorem s2_main_v3 : W2 m ρ c (Proc.devRef .tc main_v3) = W1 m ρ c (Proc.devRef .tc main_v3) := by host_carry
theorem s8_main_v6 : W8 m ρ c (Proc.devRef .tc main_v6) = W7 m ρ c (Proc.devRef .tc main_v6) := W8_of_ne m ρ c main_v6 (by decide)
theorem s7_main_v6 : W7 m ρ c (Proc.devRef .tc main_v6) = W6 m ρ c (Proc.devRef .tc main_v6) := by host_carry
theorem s6_main_v6 : W6 m ρ c (Proc.devRef .tc main_v6) = W5 m ρ c (Proc.devRef .tc main_v6) := W6_of_ne m ρ c main_v6 (by decide)
theorem s5_main_v6 : W5 m ρ c (Proc.devRef .tc main_v6) = W4 m ρ c (Proc.devRef .tc main_v6) := by host_carry
theorem s4_main_v6 : W4 m ρ c (Proc.devRef .tc main_v6) = W3 m ρ c (Proc.devRef .tc main_v6) := W4_of_ne m ρ c main_v6 (by decide)
theorem s3_main_v6 : W3 m ρ c (Proc.devRef .tc main_v6) = W2 m ρ c (Proc.devRef .tc main_v6) := by host_carry
theorem s2_main_v6 : W2 m ρ c (Proc.devRef .tc main_v6) = W1 m ρ c (Proc.devRef .tc main_v6) := by host_carry
theorem s8_main_v15 : W8 m ρ c (Proc.devRef .tc main_v15) = W7 m ρ c (Proc.devRef .tc main_v15) :=
  (W8_arr m ρ c 2).trans (((dat2 (V7 m ρ) c).arrAt_in 2 rfl _).trans (A_eq2 (V7 m ρ) c 2))
theorem s7_main_v15 : W7 m ρ c (Proc.devRef .tc main_v15) = W6 m ρ c (Proc.devRef .tc main_v15) := by host_carry
theorem s6_main_v15 : W6 m ρ c (Proc.devRef .tc main_v15) = W5 m ρ c (Proc.devRef .tc main_v15) :=
  (W6_arr m ρ c 2).trans (((dat1 (V5 m ρ) c).arrAt_in 2 rfl _).trans (A_eq1 (V5 m ρ) c 2))
theorem s5_main_v15 : W5 m ρ c (Proc.devRef .tc main_v15) = W4 m ρ c (Proc.devRef .tc main_v15) := by host_carry
theorem s4_main_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))

/-! ## The same, from a boundary back to where the buffer was last written (an argument: the launch memory) -/
theorem at1_main_arg0 : W1 m ρ c (Proc.devRef .tc main_arg0) = m ((c : Thread nD τ).loc main_arg0) := (s1_main_arg0 m ρ c).trans (rfl)
theorem at2_main_arg0 : W2 m ρ c (Proc.devRef .tc main_arg0) = m ((c : Thread nD τ).loc main_arg0) := (s2_main_arg0 m ρ c).trans (at1_main_arg0 m ρ c)
theorem at3_main_arg0 : W3 m ρ c (Proc.devRef .tc main_arg0) = m ((c : Thread nD τ).loc main_arg0) := (s3_main_arg0 m ρ c).trans (at2_main_arg0 m ρ c)
theorem at1_main_arg3 : W1 m ρ c (Proc.devRef .tc main_arg3) = m ((c : Thread nD τ).loc main_arg3) := (s1_main_arg3 m ρ c).trans (rfl)
theorem at2_main_arg3 : W2 m ρ c (Proc.devRef .tc main_arg3) = m ((c : Thread nD τ).loc main_arg3) := (s2_main_arg3 m ρ c).trans (at1_main_arg3 m ρ c)
theorem at3_main_arg3 : W3 m ρ c (Proc.devRef .tc main_arg3) = m ((c : Thread nD τ).loc main_arg3) := (s3_main_arg3 m ρ c).trans (at2_main_arg3 m ρ c)
theorem at1_main_arg4 : W1 m ρ c (Proc.devRef .tc main_arg4) = m ((c : Thread nD τ).loc main_arg4) := (s1_main_arg4 m ρ c).trans (rfl)
theorem at2_main_arg4 : W2 m ρ c (Proc.devRef .tc main_arg4) = m ((c : Thread nD τ).loc main_arg4) := (s2_main_arg4 m ρ c).trans (at1_main_arg4 m ρ c)
theorem at3_main_arg4 : W3 m ρ c (Proc.devRef .tc main_arg4) = m ((c : Thread nD τ).loc main_arg4) := (s3_main_arg4 m ρ c).trans (at2_main_arg4 m ρ c)
theorem at4_main_arg4 : W4 m ρ c (Proc.devRef .tc main_arg4) = m ((c : Thread nD τ).loc main_arg4) := (s4_main_arg4 m ρ c).trans (at3_main_arg4 m ρ c)
theorem at1_main_arg5 : W1 m ρ c (Proc.devRef .tc main_arg5) = m ((c : Thread nD τ).loc main_arg5) := (s1_main_arg5 m ρ c).trans (rfl)
theorem at2_main_arg5 : W2 m ρ c (Proc.devRef .tc main_arg5) = m ((c : Thread nD τ).loc main_arg5) := (s2_main_arg5 m ρ c).trans (at1_main_arg5 m ρ c)
theorem at3_main_arg5 : W3 m ρ c (Proc.devRef .tc main_arg5) = m ((c : Thread nD τ).loc main_arg5) := (s3_main_arg5 m ρ c).trans (at2_main_arg5 m ρ c)
theorem at4_main_arg5 : W4 m ρ c (Proc.devRef .tc main_arg5) = m ((c : Thread nD τ).loc main_arg5) := (s4_main_arg5 m ρ c).trans (at3_main_arg5 m ρ c)
theorem at5_main_arg5 : W5 m ρ c (Proc.devRef .tc main_arg5) = m ((c : Thread nD τ).loc main_arg5) := (s5_main_arg5 m ρ c).trans (at4_main_arg5 m ρ c)
theorem at1_main_arg6 : W1 m ρ c (Proc.devRef .tc main_arg6) = m ((c : Thread nD τ).loc main_arg6) := (s1_main_arg6 m ρ c).trans (rfl)
theorem at2_main_arg6 : W2 m ρ c (Proc.devRef .tc main_arg6) = m ((c : Thread nD τ).loc main_arg6) := (s2_main_arg6 m ρ c).trans (at1_main_arg6 m ρ c)
theorem at3_main_arg6 : W3 m ρ c (Proc.devRef .tc main_arg6) = m ((c : Thread nD τ).loc main_arg6) := (s3_main_arg6 m ρ c).trans (at2_main_arg6 m ρ c)
theorem at4_main_arg6 : W4 m ρ c (Proc.devRef .tc main_arg6) = m ((c : Thread nD τ).loc main_arg6) := (s4_main_arg6 m ρ c).trans (at3_main_arg6 m ρ c)
theorem at5_main_arg6 : W5 m ρ c (Proc.devRef .tc main_arg6) = m ((c : Thread nD τ).loc main_arg6) := (s5_main_arg6 m ρ c).trans (at4_main_arg6 m ρ c)
theorem at6_main_arg6 : W6 m ρ c (Proc.devRef .tc main_arg6) = m ((c : Thread nD τ).loc main_arg6) := (s6_main_arg6 m ρ c).trans (at5_main_arg6 m ρ c)
theorem at1_main_arg7 : W1 m ρ c (Proc.devRef .tc main_arg7) = m ((c : Thread nD τ).loc main_arg7) := (s1_main_arg7 m ρ c).trans (rfl)
theorem at2_main_arg7 : W2 m ρ c (Proc.devRef .tc main_arg7) = m ((c : Thread nD τ).loc main_arg7) := (s2_main_arg7 m ρ c).trans (at1_main_arg7 m ρ c)
theorem at3_main_arg7 : W3 m ρ c (Proc.devRef .tc main_arg7) = m ((c : Thread nD τ).loc main_arg7) := (s3_main_arg7 m ρ c).trans (at2_main_arg7 m ρ c)
theorem at4_main_arg7 : W4 m ρ c (Proc.devRef .tc main_arg7) = m ((c : Thread nD τ).loc main_arg7) := (s4_main_arg7 m ρ c).trans (at3_main_arg7 m ρ c)
theorem at5_main_arg7 : W5 m ρ c (Proc.devRef .tc main_arg7) = m ((c : Thread nD τ).loc main_arg7) := (s5_main_arg7 m ρ c).trans (at4_main_arg7 m ρ c)
theorem at6_main_arg7 : W6 m ρ c (Proc.devRef .tc main_arg7) = m ((c : Thread nD τ).loc main_arg7) := (s6_main_arg7 m ρ c).trans (at5_main_arg7 m ρ c)
theorem at7_main_arg7 : W7 m ρ c (Proc.devRef .tc main_arg7) = m ((c : Thread nD τ).loc main_arg7) := (s7_main_arg7 m ρ c).trans (at6_main_arg7 m ρ c)
theorem at1_main_arg8 : W1 m ρ c (Proc.devRef .tc main_arg8) = m ((c : Thread nD τ).loc main_arg8) := (s1_main_arg8 m ρ c).trans (rfl)
theorem at2_main_arg8 : W2 m ρ c (Proc.devRef .tc main_arg8) = m ((c : Thread nD τ).loc main_arg8) := (s2_main_arg8 m ρ c).trans (at1_main_arg8 m ρ c)
theorem at3_main_arg8 : W3 m ρ c (Proc.devRef .tc main_arg8) = m ((c : Thread nD τ).loc main_arg8) := (s3_main_arg8 m ρ c).trans (at2_main_arg8 m ρ c)
theorem at4_main_arg8 : W4 m ρ c (Proc.devRef .tc main_arg8) = m ((c : Thread nD τ).loc main_arg8) := (s4_main_arg8 m ρ c).trans (at3_main_arg8 m ρ c)
theorem at5_main_arg8 : W5 m ρ c (Proc.devRef .tc main_arg8) = m ((c : Thread nD τ).loc main_arg8) := (s5_main_arg8 m ρ c).trans (at4_main_arg8 m ρ c)
theorem at6_main_arg8 : W6 m ρ c (Proc.devRef .tc main_arg8) = m ((c : Thread nD τ).loc main_arg8) := (s6_main_arg8 m ρ c).trans (at5_main_arg8 m ρ c)
theorem at7_main_arg8 : W7 m ρ c (Proc.devRef .tc main_arg8) = m ((c : Thread nD τ).loc main_arg8) := (s7_main_arg8 m ρ c).trans (at6_main_arg8 m ρ c)
theorem at8_main_arg8 : W8 m ρ c (Proc.devRef .tc main_arg8) = m ((c : Thread nD τ).loc main_arg8) := (s8_main_arg8 m ρ c).trans (at7_main_arg8 m ρ c)
theorem at1_main_arg2 : W1 m ρ c (Proc.devRef .tc main_arg2) = m ((c : Thread nD τ).loc main_arg2) := (s1_main_arg2 m ρ c).trans (rfl)
theorem at2_main_arg2 : W2 m ρ c (Proc.devRef .tc main_arg2) = m ((c : Thread nD τ).loc main_arg2) := (s2_main_arg2 m ρ c).trans (at1_main_arg2 m ρ c)
theorem at3_main_arg2 : W3 m ρ c (Proc.devRef .tc main_arg2) = m ((c : Thread nD τ).loc main_arg2) := (s3_main_arg2 m ρ c).trans (at2_main_arg2 m ρ c)
theorem at4_main_arg2 : W4 m ρ c (Proc.devRef .tc main_arg2) = m ((c : Thread nD τ).loc main_arg2) := (s4_main_arg2 m ρ c).trans (at3_main_arg2 m ρ c)
theorem at5_main_arg2 : W5 m ρ c (Proc.devRef .tc main_arg2) = m ((c : Thread nD τ).loc main_arg2) := (s5_main_arg2 m ρ c).trans (at4_main_arg2 m ρ c)
theorem at6_main_arg2 : W6 m ρ c (Proc.devRef .tc main_arg2) = m ((c : Thread nD τ).loc main_arg2) := (s6_main_arg2 m ρ c).trans (at5_main_arg2 m ρ c)
theorem at7_main_arg2 : W7 m ρ c (Proc.devRef .tc main_arg2) = m ((c : Thread nD τ).loc main_arg2) := (s7_main_arg2 m ρ c).trans (at6_main_arg2 m ρ c)
theorem at8_main_arg2 : W8 m ρ c (Proc.devRef .tc main_arg2) = m ((c : Thread nD τ).loc main_arg2) := (s8_main_arg2 m ρ c).trans (at7_main_arg2 m ρ c)
theorem at1_main_arg9 : W1 m ρ c (Proc.devRef .tc main_arg9) = m ((c : Thread nD τ).loc main_arg9) := (s1_main_arg9 m ρ c).trans (rfl)
theorem at2_main_arg9 : W2 m ρ c (Proc.devRef .tc main_arg9) = m ((c : Thread nD τ).loc main_arg9) := (s2_main_arg9 m ρ c).trans (at1_main_arg9 m ρ c)
theorem at3_main_arg9 : W3 m ρ c (Proc.devRef .tc main_arg9) = m ((c : Thread nD τ).loc main_arg9) := (s3_main_arg9 m ρ c).trans (at2_main_arg9 m ρ c)
theorem at4_main_arg9 : W4 m ρ c (Proc.devRef .tc main_arg9) = m ((c : Thread nD τ).loc main_arg9) := (s4_main_arg9 m ρ c).trans (at3_main_arg9 m ρ c)
theorem at5_main_arg9 : W5 m ρ c (Proc.devRef .tc main_arg9) = m ((c : Thread nD τ).loc main_arg9) := (s5_main_arg9 m ρ c).trans (at4_main_arg9 m ρ c)
theorem at6_main_arg9 : W6 m ρ c (Proc.devRef .tc main_arg9) = m ((c : Thread nD τ).loc main_arg9) := (s6_main_arg9 m ρ c).trans (at5_main_arg9 m ρ c)
theorem at7_main_arg9 : W7 m ρ c (Proc.devRef .tc main_arg9) = m ((c : Thread nD τ).loc main_arg9) := (s7_main_arg9 m ρ c).trans (at6_main_arg9 m ρ c)
theorem at8_main_arg9 : W8 m ρ c (Proc.devRef .tc main_arg9) = m ((c : Thread nD τ).loc main_arg9) := (s8_main_arg9 m ρ c).trans (at7_main_arg9 m ρ c)
theorem at9_main_arg9 : W9 m ρ c (Proc.devRef .tc main_arg9) = m ((c : Thread nD τ).loc main_arg9) := (s9_main_arg9 m ρ c).trans (at8_main_arg9 m ρ c)
theorem at1_main_arg10 : W1 m ρ c (Proc.devRef .tc main_arg10) = m ((c : Thread nD τ).loc main_arg10) := (s1_main_arg10 m ρ c).trans (rfl)
theorem at2_main_arg10 : W2 m ρ c (Proc.devRef .tc main_arg10) = m ((c : Thread nD τ).loc main_arg10) := (s2_main_arg10 m ρ c).trans (at1_main_arg10 m ρ c)
theorem at3_main_arg10 : W3 m ρ c (Proc.devRef .tc main_arg10) = m ((c : Thread nD τ).loc main_arg10) := (s3_main_arg10 m ρ c).trans (at2_main_arg10 m ρ c)
theorem at4_main_arg10 : W4 m ρ c (Proc.devRef .tc main_arg10) = m ((c : Thread nD τ).loc main_arg10) := (s4_main_arg10 m ρ c).trans (at3_main_arg10 m ρ c)
theorem at5_main_arg10 : W5 m ρ c (Proc.devRef .tc main_arg10) = m ((c : Thread nD τ).loc main_arg10) := (s5_main_arg10 m ρ c).trans (at4_main_arg10 m ρ c)
theorem at6_main_arg10 : W6 m ρ c (Proc.devRef .tc main_arg10) = m ((c : Thread nD τ).loc main_arg10) := (s6_main_arg10 m ρ c).trans (at5_main_arg10 m ρ c)
theorem at7_main_arg10 : W7 m ρ c (Proc.devRef .tc main_arg10) = m ((c : Thread nD τ).loc main_arg10) := (s7_main_arg10 m ρ c).trans (at6_main_arg10 m ρ c)
theorem at8_main_arg10 : W8 m ρ c (Proc.devRef .tc main_arg10) = m ((c : Thread nD τ).loc main_arg10) := (s8_main_arg10 m ρ c).trans (at7_main_arg10 m ρ c)
theorem at9_main_arg10 : W9 m ρ c (Proc.devRef .tc main_arg10) = m ((c : Thread nD τ).loc main_arg10) := (s9_main_arg10 m ρ c).trans (at8_main_arg10 m ρ c)
theorem at10_main_arg10 : W10 m ρ c (Proc.devRef .tc main_arg10) = m ((c : Thread nD τ).loc main_arg10) := (s10_main_arg10 m ρ c).trans (at9_main_arg10 m ρ c)
theorem at2_main_v3 : W2 m ρ c (Proc.devRef .tc main_v3) = W1 m ρ c (Proc.devRef .tc main_v3) := (s2_main_v3 m ρ c).trans (rfl)
theorem at3_main_v3 : W3 m ρ c (Proc.devRef .tc main_v3) = W1 m ρ c (Proc.devRef .tc main_v3) := (s3_main_v3 m ρ c).trans (at2_main_v3 m ρ c)
theorem at4_main_v3 : W4 m ρ c (Proc.devRef .tc main_v3) = W1 m ρ c (Proc.devRef .tc main_v3) := (s4_main_v3 m ρ c).trans (at3_main_v3 m ρ c)
theorem at5_main_v3 : W5 m ρ c (Proc.devRef .tc main_v3) = W1 m ρ c (Proc.devRef .tc main_v3) := (s5_main_v3 m ρ c).trans (at4_main_v3 m ρ c)
theorem at6_main_v3 : W6 m ρ c (Proc.devRef .tc main_v3) = W1 m ρ c (Proc.devRef .tc main_v3) := (s6_main_v3 m ρ c).trans (at5_main_v3 m ρ c)
theorem at7_main_v3 : W7 m ρ c (Proc.devRef .tc main_v3) = W1 m ρ c (Proc.devRef .tc main_v3) := (s7_main_v3 m ρ c).trans (at6_main_v3 m ρ c)
theorem at8_main_v3 : W8 m ρ c (Proc.devRef .tc main_v3) = W1 m ρ c (Proc.devRef .tc main_v3) := (s8_main_v3 m ρ c).trans (at7_main_v3 m ρ c)
theorem at2_main_v6 : W2 m ρ c (Proc.devRef .tc main_v6) = W1 m ρ c (Proc.devRef .tc main_v6) := (s2_main_v6 m ρ c).trans (rfl)
theorem at3_main_v6 : W3 m ρ c (Proc.devRef .tc main_v6) = W1 m ρ c (Proc.devRef .tc main_v6) := (s3_main_v6 m ρ c).trans (at2_main_v6 m ρ c)
theorem at4_main_v6 : W4 m ρ c (Proc.devRef .tc main_v6) = W1 m ρ c (Proc.devRef .tc main_v6) := (s4_main_v6 m ρ c).trans (at3_main_v6 m ρ c)
theorem at5_main_v6 : W5 m ρ c (Proc.devRef .tc main_v6) = W1 m ρ c (Proc.devRef .tc main_v6) := (s5_main_v6 m ρ c).trans (at4_main_v6 m ρ c)
theorem at6_main_v6 : W6 m ρ c (Proc.devRef .tc main_v6) = W1 m ρ c (Proc.devRef .tc main_v6) := (s6_main_v6 m ρ c).trans (at5_main_v6 m ρ c)
theorem at7_main_v6 : W7 m ρ c (Proc.devRef .tc main_v6) = W1 m ρ c (Proc.devRef .tc main_v6) := (s7_main_v6 m ρ c).trans (at6_main_v6 m ρ c)
theorem at8_main_v6 : W8 m ρ c (Proc.devRef .tc main_v6) = W1 m ρ c (Proc.devRef .tc main_v6) := (s8_main_v6 m ρ c).trans (at7_main_v6 m ρ c)
theorem at4_main_v15 : W4 m ρ c (Proc.devRef .tc main_v15) = W3 m ρ c (Proc.devRef .tc main_v15) := (s4_main_v15 m ρ c).trans (rfl)
theorem at5_main_v15 : W5 m ρ c (Proc.devRef .tc main_v15) = W3 m ρ c (Proc.devRef .tc main_v15) := (s5_main_v15 m ρ c).trans (at4_main_v15 m ρ c)
theorem at6_main_v15 : W6 m ρ c (Proc.devRef .tc main_v15) = W3 m ρ c (Proc.devRef .tc main_v15) := (s6_main_v15 m ρ c).trans (at5_main_v15 m ρ c)
theorem at7_main_v15 : W7 m ρ c (Proc.devRef .tc main_v15) = W3 m ρ c (Proc.devRef .tc main_v15) := (s7_main_v15 m ρ c).trans (at6_main_v15 m ρ c)
theorem at8_main_v15 : W8 m ρ c (Proc.devRef .tc main_v15) = W3 m ρ c (Proc.devRef .tc main_v15) := (s8_main_v15 m ρ c).trans (at7_main_v15 m ρ c)

end Cert.KernelIdeal.Carry

end
-- ==== Proof.LayerDefs.lean ====
/-
  One graph-convolution layer after its dense projection, as each program computes it, as a function of the projected
  rows.

  Both programs build, from the edge list x1 (two rows of E node numbers, sources and targets, with one self loop per
  node appended), the weight d = 1/sqrt(degree) of each node (0 for a node of degree 0). The reference projects the
  node rows (xw = h W), takes for every edge the source's projected row, scales it by d(source) · d(target), adds it
  into the target's row and adds the bias. The kernel's projection already scales row i by d i (yw i = xw i · d i); it
  takes for every edge the source's scaled row, adds it into the target's row, scales the sums by d (target), and adds
  the bias. `refTail` and `kerTail` are these two tails, over the reference's own stages of the edge list.
-/
import proofs.«132979_j77120432767264_2_alg».proof.KernelIdeal
import proofs.«132979_j77120432767264_2_alg».proof.Proof.RefRead

noncomputable section

namespace Cert.Bridge

open Idealize.ShloMosaic Cert.ReferenceIdeal.Read

variable [hK : Cert.KernelIdeal.Facts] [hR : Cert.ReferenceIdeal.Facts]

/-- The node weights as an N x 1 column, as the kernel's program recasts them. -/
def dcol (x1 : (⟨Cert.ReferenceIdeal.S2x1600000, .i32⟩ : BufTy).Contents (Elt Ideal)) :
    (⟨Cert.KernelIdeal.S100000x1, .f32⟩ : BufTy).Contents (Elt Ideal) :=
  shapeCast Cert.KernelIdeal.S100000x1 (val_main_v14 (F := Ideal) x1) Cert.KernelIdeal.Facts₀.shapeCasts_S100000_S100000x1

/-- The reference's layer tail: edge rows of the projected table xw, weighted by d(source) · d(target), summed into
    their targets, plus the bias. -/
def refTail (xw : (⟨Cert.ReferenceIdeal.S100000x64, .f32⟩ : BufTy).Contents (Elt Ideal))
    (x1 : (⟨Cert.ReferenceIdeal.S2x1600000, .i32⟩ : BufTy).Contents (Elt Ideal))
    (b : (⟨Cert.ReferenceIdeal.S64, .f32⟩ : BufTy).Contents (Elt Ideal)) :
    (⟨Cert.ReferenceIdeal.S100000x64, .f32⟩ : BufTy).Contents (Elt Ideal) :=
  addf (F := Ideal) (φ := .f32) (Host.scatterAdd (F := Ideal) (φ := .f32) Cert.ReferenceIdeal.scatter_S100000x64_S1700000x1_S1700000x64_1_0_0_1 (val_main_v41 (F := Ideal))
      (val_main_v42 (F := Ideal) x1)
      (mulf (F := Ideal) (φ := .f32) (Host.gather (α := Ideal .f32) Cert.ReferenceIdeal.gather_S100000x64_S1700000x1_S1700000x64_1_0_n_n_0_1_164 xw (val_main_v36 (F := Ideal) x1))
        (val_main_v39 (F := Ideal) x1)))
    (val_main_v45 (F := Ideal) b)

open Cert.KernelIdeal Cert.KernelIdeal.Facts₀ in
/-- The kernel's layer tail: edge rows of the already scaled table yw, summed into their targets, the sums scaled by
    d(target), plus the bias. -/
def kerTail (yw : (⟨Cert.KernelIdeal.S100000x64, .bf16⟩ : BufTy).Contents (Elt Ideal))
    (v3 v6 : (⟨Cert.KernelIdeal.S1700000, .i32⟩ : BufTy).Contents (Elt Ideal))
    (d2 : (⟨Cert.KernelIdeal.S100000x1, .f32⟩ : BufTy).Contents (Elt Ideal))
    (b : (⟨Cert.KernelIdeal.S64, .f32⟩ : BufTy).Contents (Elt Ideal)) :
    (⟨Cert.KernelIdeal.S100000x64, .f32⟩ : BufTy).Contents (Elt Ideal) :=
  addf (F := Ideal) (φ := .f32) (mulf (F := Ideal) (φ := .f32) (broadcastInDim S100000x64 ![0, 1] bcast_S100000x1_S100000x64_0_1 d2)
      (Host.scatterAdd (F := Ideal) (φ := .f32) scatter_S100000x64_S1700000x1_S1700000x64_1_0_0_1
        (broadcastInDim S100000x64 ![] bcast_S_S100000x64 (constant (F := Ideal) S_ .f32 0x00000000#32))
        (broadcastInDim S1700000x1 ![0] bcast_S1700000_S1700000x1_0 v6)
        (extf (F := Ideal) (φ := .bf16) .f32 (Host.gather (α := Ideal .bf16) gather_S100000x64_S1700000x1_S1700000x64_1_0_n_n_0_1_164 yw
          (broadcastInDim S1700000x1 ![0] bcast_S1700000_S1700000x1_0
            (select (cmpi .slt v3 (broadcastInDim S1700000 ![] bcast_S_S1700000 (constantI S_ 32 0#32)))
              (addi v3 (broadcastInDim S1700000 ![] bcast_S_S1700000 (constantI S_ 32 100000#32))) v3))) bitsLt_bf16_f32)))
    (broadcastInDim S100000x64 ![0, 1] bcast_S1x64_S100000x64_0_1 (broadcastInDim S1x64 ![1] bcast_S64_S1x64_1 b))

/-- The mean of the node rows over each graph of the batch, as both programs compute it after the last layer: the rows
    summed into their graph's row, divided by the graph's node count (at least 1). -/
def pool (h : (⟨Cert.ReferenceIdeal.S100000x64, .f32⟩ : BufTy).Contents (Elt Ideal))
    (x2 : (⟨Cert.ReferenceIdeal.S100000, .i32⟩ : BufTy).Contents (Elt Ideal)) :
    (⟨Cert.ReferenceIdeal.S1024x64, .f32⟩ : BufTy).Contents (Elt Ideal) :=
  Host.divf (F := Ideal) (φ := .f32) (Host.scatterAdd (F := Ideal) (φ := .f32) Cert.ReferenceIdeal.scatter_S1024x64_S100000x1_S100000x64_1_0_0_1 (val_main_v111 (F := Ideal))
      (val_main_v112 (F := Ideal) x2) h)
    (val_main_v121 (F := Ideal) x2)

end Cert.Bridge

end
-- ==== Proof.KernelHostReads.lean ====
import proofs.«132979_j77120432767264_2_alg».proof.Proof.Gen.KernelIdeal.Frame
import proofs.«132979_j77120432767264_2_alg».proof.Proof.KernelCarry
import proofs.«132979_j77120432767264_2_alg».proof.Proof.LayerDefs

set_option maxRecDepth 16384

noncomputable section

namespace Cert.KernelIdeal.HostReads

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Carry Cert.Bridge
open Cert.ReferenceIdeal.Read (val_main_v3 val_main_v6 val_main_v14)

variable (m : (ℓ : Loc nD τ sig) → Buf (Elt Ideal) ℓ) (ρ : Dev nD → PrngReg) (c : Dev nD)

/-! ## The edge list's stages as the first stretch of host operations leaves them

The kernel's program and the reference compute the source and target columns of the edge list (with the self loops
appended) and the node weights by the same operations on the same argument, so the kernel's buffers hold the
reference's own stages of that argument. -/

set_option maxHeartbeats 8000000 in
/-- The source column, after the first stretch. -/
theorem src_at1 : W1 m ρ c (Proc.devRef .tc main_v3) = val_main_v3 (F := Ideal) (m ((c : Thread nD τ).loc main_arg1)) := by
  show StableHlo.after hostOps0 (W0 m ρ c) (Proc.devRef .tc main_v3) = _
  after_results
  rfl

set_option maxHeartbeats 8000000 in
/-- The target column, after the first stretch. -/
theorem tgt_at1 : W1 m ρ c (Proc.devRef .tc main_v6) = val_main_v6 (F := Ideal) (m ((c : Thread nD τ).loc main_arg1)) := by
  show StableHlo.after hostOps0 (W0 m ρ c) (Proc.devRef .tc main_v6) = _
  after_results
  rfl

/-! ## Each later stretch, from the buffers it reads -/

set_option maxHeartbeats 8000000 in
/-- The first layer's output, from the first region's scaled projection and the carried buffers. -/
theorem layer1_at5 : W5 m ρ c (Proc.devRef .tc main_v32)
    = kerTail (W4 m ρ c (Proc.devRef .tc main_v16)) (W4 m ρ c (Proc.devRef .tc main_v3)) (W4 m ρ c (Proc.devRef .tc main_v6))
        (W4 m ρ c (Proc.devRef .tc main_v15)) (W4 m ρ c (Proc.devRef .tc main_arg4)) := by
  show StableHlo.after hostOps1 (W4 m ρ c) (Proc.devRef .tc main_v32) = _
  after_results
  rfl

set_option maxHeartbeats 8000000 in
/-- The second layer's output. -/
theorem layer2_at7 : W7 m ρ c (Proc.devRef .tc main_v49)
    = kerTail (W6 m ρ c (Proc.devRef .tc main_v33)) (W6 m ρ c (Proc.devRef .tc main_v3)) (W6 m ρ c (Proc.devRef .tc main_v6))
        (W6 m ρ c (Proc.devRef .tc main_v15)) (W6 m ρ c (Proc.devRef .tc main_arg6)) := by
  show StableHlo.after hostOps2 (W6 m ρ c) (Proc.devRef .tc main_v49) = _
  after_results
  rfl

set_option maxHeartbeats 8000000 in
/-- The pooled rows, at the last region's entry: the third layer's output averaged over each graph. -/
theorem pooled_at9 : W9 m ρ c (Proc.devRef .tc main_v78)
    = pool (kerTail (W8 m ρ c (Proc.devRef .tc main_v50)) (W8 m ρ c (Proc.devRef .tc main_v3)) (W8 m ρ c (Proc.devRef .tc main_v6))
        (W8 m ρ c (Proc.devRef .tc main_v15)) (W8 m ρ c (Proc.devRef .tc main_arg8))) (W8 m ρ c (Proc.devRef .tc main_arg2)) := by
  show StableHlo.after hostOps3 (W8 m ρ c) (Proc.devRef .tc main_v78) = _
  after_results
  rfl

set_option maxHeartbeats 8000000 in
/-- The result: the last region's product plus the output bias broadcast down the rows. -/
theorem result_at11 : W11 m ρ c (Proc.devRef .tc main_v82)
    = addf (F := Ideal) (φ := .f32) (s := S1024x10) (W10 m ρ c (Proc.devRef .tc main_v79))
        (Cert.ReferenceIdeal.Read.val_main_v125 (F := Ideal) (W10 m ρ c (Proc.devRef .tc main_arg10))) := by
  show StableHlo.after hostOps4 (W10 m ρ c) (Proc.devRef .tc main_v82) = _
  after_results
  rfl

end Cert.KernelIdeal.HostReads

end
-- ==== Proof.KernelWeights.lean ====
import proofs.«132979_j77120432767264_2_alg».proof.Proof.Gen.KernelIdeal.Frame
import proofs.«132979_j77120432767264_2_alg».proof.Proof.KernelCarry
import proofs.«132979_j77120432767264_2_alg».proof.Proof.LayerDefs

set_option maxRecDepth 16384

noncomputable section

namespace Cert.KernelIdeal.HostReads

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Carry Cert.Bridge
open Cert.ReferenceIdeal.Read (val_main_v3 val_main_v6 val_main_v14 val_main_v12 val_main_v13)

variable (m : (ℓ : Loc nD τ sig) → Buf (Elt Ideal) ℓ) (ρ : Dev nD → PrngReg) (c : Dev nD)

/-! ## The node weights as the first three stretches of host operations leave them

The degrees, their comparison with zero and their reciprocal square roots after the first stretch; the choice between the
reciprocal square root and zero after the second (the outlined "where"); the recast to a column after the third. -/

set_option maxHeartbeats 8000000 in
/-- "degree > 0", after the first stretch. -/
theorem pos_at1 : W1 m ρ c (Proc.devRef .tc main_v12) = val_main_v12 (F := Ideal) (m ((c : Thread nD τ).loc main_arg1)) := by
  show StableHlo.after hostOps0 (W0 m ρ c) (Proc.devRef .tc main_v12) = _
  after_results
  rfl

set_option maxHeartbeats 8000000 in
/-- 1/sqrt(degree), after the first stretch. -/
theorem rsq_at1 : W1 m ρ c (Proc.devRef .tc main_v13) = val_main_v13 (F := Ideal) (m ((c : Thread nD τ).loc main_arg1)) := by
  show StableHlo.after hostOps0 (W0 m ρ c) (Proc.devRef .tc main_v13) = _
  after_results
  rfl

set_option maxHeartbeats 8000000 in
/-- The zero the "where" chooses, after the first stretch. -/
theorem zero_at1 : W1 m ρ c (Proc.devRef .tc main_cst_2) = constant (F := Ideal) S_ .f32 0x00000000#32 := by
  show StableHlo.after hostOps0 (W0 m ρ c) (Proc.devRef .tc main_cst_2) = _
  after_results

set_option maxHeartbeats 8000000 in
/-- The outlined "where" from any contents: its result is the choice, entry by entry, between the second and the zero
    vector by the first. -/
theorem where_stretch (V : Valuation τ sig (Elt Ideal)) :
    StableHlo.after hostOps0_1 V (Proc.devRef .tc main_v14)
      = (select (V (Proc.devRef .tc main_v12)) (V (Proc.devRef .tc main_v13))
          (broadcastInDim S100000 ![] Facts₀.bcast_S_S100000 (V (Proc.devRef .tc main_cst_2))) : FVec Ideal S100000 .f32) := by
  after_results
  rfl

set_option maxHeartbeats 8000000 in
/-- The node weights, after the second stretch. -/
theorem w_at2 : W2 m ρ c (Proc.devRef .tc main_v14) = val_main_v14 (F := Ideal) (m ((c : Thread nD τ).loc main_arg1)) := by
  show StableHlo.after hostOps0_1 (W1 m ρ c) (Proc.devRef .tc main_v14) = _
  have h12 := pos_at1 m ρ c
  have h13 := rsq_at1 m ρ c
  have h0 := zero_at1 m ρ c
  generalize W1 m ρ c = V at h12 h13 h0 ⊢
  rw [where_stretch, h12, h13, h0]
  rfl

set_option maxHeartbeats 8000000 in
/-- The node weights as a column, at the first region's entry. -/
theorem wcol_at3 : W3 m ρ c (Proc.devRef .tc main_v15) = dcol (m ((c : Thread nD τ).loc main_arg1)) := by
  show StableHlo.after hostOps0_2 (W2 m ρ c) (Proc.devRef .tc main_v15) = _
  have h14 := w_at2 m ρ c
  generalize W2 m ρ c = V at h14 ⊢
  after_results
  rw [h14]
  rfl

end Cert.KernelIdeal.HostReads

end
-- ==== Proof.KernelRun.lean ====
import proofs.«132979_j77120432767264_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program with its result buffer named: every weakly fair execution terminates, without a
    fault, the result array holding what the last stretch of host operations leaves there (the fold of the host
    stretches and of the four regions' write-backs from the launch memory), and the argument arrays as launched. -/
theorem run_result : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.RunValue

end
-- ==== Proof.LibVecGather.lean ====
/-
  READING A ONE-AXIS TABLE BY AN INDEX VECTOR, THE RECIPROCAL SQUARE ROOT OF A POSITIVE EXTENDED REAL, A NONNEGATIVE REAL
  FACTOR THROUGH A FINITE SUM, AND THE WRAP OF A NEGATIVE INDEX, each read at an index.

  * For a table x of N entries and a vector idx of E integer positions (held as an E x 1 array of words of any width),
    the gather whose dimension numbers have no offset axis, collapse the one table axis, map the one start-index
    component to it and slice 1 — what x[idx] of a one-axis table is — has, at e, the value x (clamp (idx e)): the
    position is read as a signed integer and clamped into [0, N - 1] (vecGather_apply).

  * The reciprocal square root of a positive extended real is a nonnegative real: 1 / sqrt r for a positive real r, and
    0 at +infinity (rsqrt_pos_nonneg_real).

  * A nonnegative real factor distributes over a finite sum of extended reals, whatever the terms are: the only failure
    of distributivity in the extended reals needs an infinite or a negative factor (coe_nonneg_mul_finset_sum).

  * The wrap of a possibly negative position, "r if r >= 0, r + N otherwise", written lane by lane as a select on the
    signed comparison r < 0 between r + N and r with the two constants broadcast from scalars, reads at a lane i as
    r i + N when r i is negative as a signed integer and as r i otherwise (wrapNeg_apply); on a lane whose position is
    nonnegative it is the position itself (wrapNeg_apply_of_nonneg).
-/
import Idealize.ShloMosaic.PureOps.Ideal.Laws
import Idealize.ShloMosaic.Lib.ValueIdx

noncomputable section

open scoped BigOperators

namespace Idealize.ShloMosaic.ValueIdx

open Idealize.ShloMosaic

/-! ## Entries of a one-axis table taken by an index vector -/

section VecGather
variable {α : Type}

/-- The gather dimension numbers of `x[idx]` for a table `x : [N]` and positions `idx : [E, 1]`, result `[E]`: no offset
    axis, the one table axis collapsed and the target of the one start-index component, index vector on the indices'
    second axis, slices of size `1`; their conditions `wf` are decided on literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the table at position `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

/-! ## The reciprocal square root of a positive extended real -/

section Rsqrt

/-- The reciprocal square root of a positive extended real is a nonnegative real: `(√r)⁻¹` at a positive real `r`, `0` at
    `⊤`. -/
theorem rsqrt_pos_nonneg_real (x : EReal) (hx : 0 < x) : ∃ r : ℝ, 0 ≤ r ∧ Ideal.rsqrt x = ((r : ℝ) : EReal) := by
  induction x using EReal.rec with
  | bot => exact absurd hx (by simp)
  | top => exact ⟨0, le_refl _, by simp⟩
  | coe r =>
    have hr : 0 < r := by exact_mod_cast hx
    refine ⟨(Real.sqrt r)⁻¹, inv_nonneg.mpr (Real.sqrt_nonneg r), ?_⟩
    rw [Ideal.rsqrt_coe, if_neg (not_lt.mpr hr.le), if_neg hr.ne']

end Rsqrt

/-! ## A nonnegative real factor through a finite sum -/

section CoeMulSum

/-- A nonnegative real factor distributes over a finite sum of extended reals. -/
theorem coe_nonneg_mul_finset_sum (r : ℝ) (hr : 0 ≤ r) {ι : Type*} (s : Finset ι) (f : ι → EReal) :
    ((r : ℝ) : EReal) * ∑ i ∈ s, f i = ∑ i ∈ s, ((r : ℝ) : EReal) * f i := by
  classical
  induction s using Finset.induction_on with
  | empty => simp
  | insert i s hi ih =>
    rw [Finset.sum_insert hi, Finset.sum_insert hi,
      EReal.left_distrib_of_nonneg_of_ne_top (EReal.coe_nonneg.mpr hr) (EReal.coe_ne_top r), ih]

end CoeMulSum

/-! ## The wrap of a negative position -/

section WrapNeg

/-- THE WRAP READ AT A LANE: the select, on the signed comparison `r < 0`, between `r + N` and `r`, the constants `0` and
    `N` broadcast from scalars, is `r i + N` on a lane whose position is negative as a signed integer and `r i`
    elsewhere. -/
theorem wrapNeg_apply {S : Shape} {w : Nat} (h : (⟨0, ![]⟩ : Shape).BroadcastsInDim S ![]) (N : Nat) (r : IVec S w)
    (i : S.Idx) :
    select (cmpi .slt r (broadcastInDim S ![] h (constantI ⟨0, ![]⟩ w 0#w)))
        (addi r (broadcastInDim S ![] h (constantI ⟨0, ![]⟩ w (BitVec.ofNat w N)))) r i
      = if (r i).toInt < 0 then r i + BitVec.ofNat w N else r i := by
  show Scalar.select (IntOp.cmpi .slt (r i) (broadcastInDim S ![] h (constantI ⟨0, ![]⟩ w 0#w) i))
      (IntOp.addi (r i) (broadcastInDim S ![] h (constantI ⟨0, ![]⟩ w (BitVec.ofNat w N)) i)) (r i) = _
  have hb : ∀ x : (⟨0, ![]⟩ : Shape).Idx → BitVec w, broadcastInDim S ![] h x i = x ix0 := fun x => by
    unfold broadcastInDim; exact congrArg x (funext fun a => a.elim0)
  rw [hb, hb]
  unfold constantI Scalar.select IntOp.cmpi IntOp.addi
  simp only [BitVec.slt, BitVec.toInt_zero]
  by_cases hneg : (r i).toInt < 0
  · simp [hneg]
  · simp [hneg]

/-- On a lane whose position is nonnegative as a signed integer the wrap is the position itself. -/
theorem wrapNeg_apply_of_nonneg {S : Shape} {w : Nat} (h : (⟨0, ![]⟩ : Shape).BroadcastsInDim S ![]) (N : Nat)
    (r : IVec S w) (i : S.Idx) (hi : 0 ≤ (r i).toInt) :
    select (cmpi .slt r (broadcastInDim S ![] h (constantI ⟨0, ![]⟩ w 0#w)))
        (addi r (broadcastInDim S ![] h (constantI ⟨0, ![]⟩ w (BitVec.ofNat w N)))) r i
      = r i := by
  rw [wrapNeg_apply, if_neg (not_lt.mpr hi)]

end WrapNeg

end Idealize.ShloMosaic.ValueIdx

end
-- ==== Proof.LibRowGatherScatter.lean ====
/-
  TAKING ROWS OF A TABLE BY AN INDEX VECTOR, AND ADDING ROWS INTO A TABLE BY AN INDEX VECTOR, read at an index.

  For a table x of N rows and K columns and a vector idx of E integer row numbers (held as an E x 1 array of words of
  any width):

  * the gather whose dimension numbers keep the column axis as the one offset axis, collapse the row axis, map the one
    start-index component to the row axis and slice 1 x K — what H[idx] of a two-axis table is — has, at (e, c), the value
    x (clamp (idx e), c): the row number is read as a signed integer and clamped into [0, N - 1], the column is kept
    (rowGather_apply);

  * the scatter whose dimension numbers take the column axis as the one update window axis, insert the row axis and map
    the one index component to the row axis — what .at[idx].add(u) of a two-axis table is — sends update element (e, c)
    to table element (idx e, c) when 0 <= idx e < N, the row number read signed and NOT clamped, and drops it otherwise
    (rowDst, rowScatter_resultIdx); so the accumulating scatter at the extended reals is, at (r, c),
    x (r, c) + the sum of u (e, c) over the positions e whose row number is r (hostScatterAdd_row_apply).

  Last, a law of finite sums of reals seen in the extended reals: weighting rows by scalars and summing commutes with a
  matrix product, sum_e v e * (sum_k a e k * b k) = sum_k (sum_e v e * a e k) * b k, every term being a real
  (sum_mul_sum_coe_comm; coe_finset_sum is the coercion of a finite real sum).
-/
import Idealize.ShloMosaic.PureOps.Ideal.Laws
import Idealize.ShloMosaic.Lib.ValueIdx

noncomputable section

open scoped BigOperators

namespace Idealize.ShloMosaic.ValueIdx

open Idealize.ShloMosaic

/-! ## Rows of a table taken by an index vector -/

section RowGather
variable {α : Type}

/-- The gather dimension numbers of `x[idx]` for a table `x : [N, K]` and row numbers `idx : [E, 1]`, result `[E, K]`:
    offset axis the result's column axis, the row axis collapsed and the target of the one start-index component, index
    vector on the indices' second axis, slices `1 × K`; their conditions `wf` are decided on literal shapes. -/
abbrev rowGatherDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE GATHER READ AT `(e, c)`: the table at row `idx[e, 0]`, read signed and clamped into `[0, N − 1]`, and column `c`. -/
theorem rowGather_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (c : Fin K) :
    Host.gather (rowGatherDims N E K wf) x idx (ix2 e c)
      = x (ix2 (⟨min (idx (ix2 e (0 : Fin 1))).toInt.toNat (N - 1), by omega⟩ : Fin N) c) := by
  have h0 : (rowGatherDims N E K wf).start (ix2 e c) idx (0 : Fin 2) + (rowGatherDims N E K wf).batchCoord (ix2 e c) (0 : Fin 2)
      + (rowGatherDims N E K wf).offCoord (ix2 e c) (0 : Fin 2) = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e c) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowGatherDims N E K wf).start (ix2 e c) idx (1 : Fin 2) + (rowGatherDims N E K wf).batchCoord (ix2 e c) (1 : Fin 2)
      + (rowGatherDims N E K wf).offCoord (ix2 e c) (1 : Fin 2) = c.val := by
    rw [GatherDims.batchCoord_eq_zero _ _ _ List.not_mem_nil]
    have hs : (rowGatherDims N E K wf).start (ix2 e c) idx (1 : Fin 2) = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl
  unfold Host.gather
  congr 1
  funext a
  refine Fin.ext ?_
  match a with
  | ⟨0, _⟩ => exact h0
  | ⟨1, _⟩ => exact h1

end RowGather

/-! ## Rows added into a table by an index vector -/

section RowScatter

/-- The scatter dimension numbers of `x.at[idx].add(u)` for a table `x : [N, K]`, row numbers `idx : [E, 1]` and updates
    `u : [E, K]`: update window axis the updates' column axis, the row axis inserted and the target of the one index
    component, index vector on the indices' second axis; their conditions `wf` are decided on literal shapes. -/
abbrev rowScatterDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The table row update position `e` goes to: `idx[e, 0]` read as a signed integer when that is in `[0, N)`, none
    otherwise (no clamping: an update outside the table is dropped). -/
def rowDst {E w : Nat} (N : Nat) (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

/-- On the row axis the window starts at the row number, read signed. -/
theorem rowScatter_start0 {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).start (ix2 e c) idx (0 : Fin 2) = (idx (ix2 e (0 : Fin 1))).toInt := by
  unfold ScatterDims.start
  rw [dif_pos (show (0 : Fin 2) ∈ (rowScatterDims N E K wf).scatterDimsToOperandDims from List.mem_singleton.mpr rfl)]
  have hsi : (rowScatterDims N E K wf).siIdx (ix2 e c) ⟨List.idxOf (0 : Fin 2) (rowScatterDims N E K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowScatter_start1 {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).start (ix2 e c) idx (1 : Fin 2) = 0 := by
  unfold ScatterDims.start
  rw [dif_neg (show (1 : Fin 2) ∉ ([0] : List (Fin 2)) by decide)]

/-- On the row axis (inserted) the window coordinate is 0. -/
theorem rowScatter_window0 {N E K : Nat} (wf : ScatterDims.WF ⟨2, ![N, K]⟩ ⟨2, ![E, 1]⟩ ⟨2, ![E, K]⟩ [1] [0] [0] 1)
    (e : Fin E) (c : Fin K) :
    (rowScatterDims N E K wf).window (ix2 e c) (0 : Fin 2) = 0 := by
  unfold ScatterDims.window
  rw [dif_neg (show (0 : Fin 2) ∉ (rowScatterDims N E K wf).sKept by simp [ScatterDims.sKept, Shape.kept, List.mem_filter])]

/-- On the column axis the window coordinate is the update's column. -/
theorem rowScatter_window1 {N E K : Nat} (wf : ScatterDims.WF ⟨2, ![N, K]⟩ ⟨2, ![E, 1]⟩ ⟨2, ![E, K]⟩ [1] [0] [0] 1)
    (e : Fin E) (c : Fin K) :
    (rowScatterDims N E K wf).window (ix2 e c) (1 : Fin 2) = c.val := by
  unfold ScatterDims.window
  rw [dif_pos (show (1 : Fin 2) ∈ (rowScatterDims N E K wf).sKept by simp [ScatterDims.sKept, Shape.kept, List.mem_filter, List.mem_finRange])]
  rfl

/-- WHERE UPDATE ELEMENT `(e, c)` LANDS: at `(r, c)` when position `e`'s row number is a row `r` of the table, nowhere
    otherwise. -/
theorem rowScatter_resultIdx {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).resultIdx? (ix2 e c) idx = (rowDst N idx e).map (fun r => ix2 r c) := by
  have hs0 := rowScatter_start0 wf idx e c
  have hs1 := rowScatter_start1 wf idx e c
  have hw0 := rowScatter_window0 wf e c
  have hw1 := rowScatter_window1 wf e c
  have hc := c.isLt
  unfold ScatterDims.resultIdx? rowDst
  by_cases h : 0 ≤ (idx (ix2 e (0 : Fin 1))).toInt ∧ (idx (ix2 e (0 : Fin 1))).toInt < N
  · have hall : ∀ a : Fin 2, 0 ≤ (rowScatterDims N E K wf).start (ix2 e c) idx a + ((rowScatterDims N E K wf).window (ix2 e c) a : Int) ∧
        (rowScatterDims N E K wf).start (ix2 e c) idx a + ((rowScatterDims N E K wf).window (ix2 e c) a : Int)
          < ((⟨2, ![N, K]⟩ : Shape).size a : Int) := by
      intro a
      match a with
      | ⟨0, _⟩ =>
        show 0 ≤ (rowScatterDims N E K wf).start (ix2 e c) idx (0 : Fin 2) + ((rowScatterDims N E K wf).window (ix2 e c) (0 : Fin 2) : Int) ∧
          (rowScatterDims N E K wf).start (ix2 e c) idx (0 : Fin 2) + ((rowScatterDims N E K wf).window (ix2 e c) (0 : Fin 2) : Int) < (N : Int)
        rw [hs0, hw0]; omega
      | ⟨1, _⟩ =>
        show 0 ≤ (rowScatterDims N E K wf).start (ix2 e c) idx (1 : Fin 2) + ((rowScatterDims N E K wf).window (ix2 e c) (1 : Fin 2) : Int) ∧
          (rowScatterDims N E K wf).start (ix2 e c) idx (1 : Fin 2) + ((rowScatterDims N E K wf).window (ix2 e c) (1 : Fin 2) : Int) < (K : Int)
        rw [hs1, hw1]; omega
    rw [dif_pos hall, dif_pos h]
    simp only [Option.map_some]
    congr 1
    funext a
    refine Fin.ext ?_
    match a with
    | ⟨0, _⟩ =>
      show ((rowScatterDims N E K wf).start (ix2 e c) idx (0 : Fin 2) + ((rowScatterDims N E K wf).window (ix2 e c) (0 : Fin 2) : Int)).toNat
        = (idx (ix2 e (0 : Fin 1))).toInt.toNat
      rw [hs0, hw0]; simp
    | ⟨1, _⟩ =>
      show ((rowScatterDims N E K wf).start (ix2 e c) idx (1 : Fin 2) + ((rowScatterDims N E K wf).window (ix2 e c) (1 : Fin 2) : Int)).toNat
        = c.val
      rw [hs1, hw1]; simp
  · have hnall : ¬ ∀ a : Fin 2, 0 ≤ (rowScatterDims N E K wf).start (ix2 e c) idx a + ((rowScatterDims N E K wf).window (ix2 e c) a : Int) ∧
        (rowScatterDims N E K wf).start (ix2 e c) idx a + ((rowScatterDims N E K wf).window (ix2 e c) a : Int)
          < ((⟨2, ![N, K]⟩ : Shape).size a : Int) := by
      intro hall
      have h0 := hall (0 : Fin 2)
      rw [hs0, hw0] at h0
      apply h
      have : ((⟨2, ![N, K]⟩ : Shape).size (0 : Fin 2) : Int) = (N : Int) := rfl
      rw [this] at h0
      omega
    rw [dif_neg hnall, dif_neg h]
    rfl

end RowScatter

section RowScatterAdd

/-- Two rank-2 indices given by coordinates are equal exactly when the coordinates are. -/
theorem ix2_eq_ix2 {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

/-- THE ACCUMULATING SCATTER READ AT `(r, c)`: the table's element plus the updates' column-`c` elements at the positions
    whose row number is `r`. -/
theorem hostScatterAdd_row_apply {N E K w : Nat} (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w) (upd : (⟨2, ![E, K]⟩ : Shape).Idx → EReal)
    (r : Fin N) (c : Fin K) :
    Ideal.hostScatterAdd (rowScatterDims N E K wf) x idx upd (ix2 r c)
      = x (ix2 r c) + ∑ e ∈ Finset.univ.filter (fun e : Fin E => rowDst N idx e = some r), upd (ix2 e c) := by
  unfold Ideal.hostScatterAdd
  congr 1
  rw [Finset.sum_filter, sum_idx2, Finset.sum_filter]
  refine Finset.sum_congr rfl fun e _ => ?_
  have key : ∀ b : Fin K, ((rowScatterDims N E K wf).resultIdx? (ix2 e b) idx = some (ix2 r c)) ↔ (rowDst N idx e = some r ∧ b = c) := by
    intro b
    rw [rowScatter_resultIdx]
    cases rowDst N idx e with
    | none => simp
    | some r' =>
      simp only [Option.map_some, Option.some.injEq]
      exact ix2_eq_ix2 r' r b c
  simp only [key]
  by_cases hr : rowDst N idx e = some r
  · simp only [hr, true_and, if_true, Finset.sum_ite_eq', Finset.mem_univ]
  · simp only [hr, false_and, if_false, Finset.sum_const_zero]

end RowScatterAdd

/-! ## Weighting rows and summing commutes with a matrix product -/

section WeightedRows

/-- The coercion of a finite sum of reals is the sum of the coercions. -/
theorem coe_finset_sum {ι : Type*} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- Rows `a e` weighted by reals `v e` and summed over `e ∈ s`, then multiplied into `b`, is the sum over `e ∈ s` of
    `v e` times the product of row `a e` with `b`: every term is a real, where the sums and products commute. -/
theorem sum_mul_sum_coe_comm {ι κ : Type*} [Fintype κ] (s : Finset ι) (v : ι → ℝ) (a : ι → κ → ℝ) (b : κ → ℝ) :
    (∑ e ∈ s, ((v e : ℝ) : EReal) * ∑ k, ((a e k : ℝ) : EReal) * ((b k : ℝ) : EReal))
      = ∑ k, (∑ e ∈ s, ((v e : ℝ) : EReal) * ((a e k : ℝ) : EReal)) * ((b k : ℝ) : EReal) := by
  simp only [← EReal.coe_mul, ← coe_finset_sum]
  congr 1
  simp only [Finset.mul_sum, Finset.sum_mul]
  rw [Finset.sum_comm]
  refine Finset.sum_congr rfl fun k _ => Finset.sum_congr rfl fun e _ => ?_
  ring

/-- The same with a leading `0 +` on each sum over `s`. -/
theorem zero_add_sum_mul_sum_coe_comm {ι κ : Type*} [Fintype κ] (s : Finset ι) (v : ι → ℝ) (a : ι → κ → ℝ) (b : κ → ℝ) :
    (0 + ∑ e ∈ s, ((v e : ℝ) : EReal) * ∑ k, ((a e k : ℝ) : EReal) * ((b k : ℝ) : EReal))
      = ∑ k, (0 + ∑ e ∈ s, ((v e : ℝ) : EReal) * ((a e k : ℝ) : EReal)) * ((b k : ℝ) : EReal) := by
  simp only [zero_add]
  exact sum_mul_sum_coe_comm s v a b

end WeightedRows

end Idealize.ShloMosaic.ValueIdx

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.GcnAlgebra.lean ====
/-
  Scaling a neighbourhood sum by the target's weight, on the extended reals.

  A graph-convolution row sums, over the edges e that point at node r, the source rows scaled by the source's weight
  d (g e) and by the target's weight d r. The target's weight is the same for every edge of the sum, so it may be taken
  out of the sum — provided it is a nonnegative real, for which multiplication distributes over any finite sum of
  extended reals (it does not for a negative or an infinite factor: (-1)·(⊤ + ⊥) ≠ (-1)·⊤ + (-1)·⊥).
-/
import proofs.«132979_j77120432767264_2_alg».proof.Proof.LibVecGather

open scoped BigOperators

namespace GcnAlgebra

/-- THE LAW THAT JOINS THE TWO PROGRAMS. Node r's aggregate when every source row was scaled by its own weight beforehand
    (yw i = xw i · d i) and the sum is scaled by r's weight afterwards, is the aggregate of the unscaled rows each weighted
    by d (source) · d (target), when the target of every edge of the sum is r and r's weight is a nonnegative real. -/
theorem aggregate_scaled {ι ν : Type*} (s : Finset ι) (g g' : ι → ν) (r : ν) (hg' : ∀ e ∈ s, g' e = r)
    (d : ν → EReal) (dr : ℝ) (hdr : 0 ≤ dr) (hd : d r = ((dr : ℝ) : EReal))
    (xw yw : ν → EReal) (hyw : ∀ i, yw i = xw i * d i) (z b : EReal) (hz : z = 0) :
    d r * (z + ∑ e ∈ s, yw (g e)) + b = (z + ∑ e ∈ s, xw (g e) * (d (g e) * d (g' e))) + b := by
  subst hz
  rw [zero_add, zero_add, hd, Idealize.ShloMosaic.ValueIdx.coe_nonneg_mul_finset_sum dr hdr]
  congr 1
  refine Finset.sum_congr rfl fun e he => ?_
  rw [hyw, hg' e he, hd, mul_comm (((dr : ℝ) : EReal)), mul_assoc]

end GcnAlgebra
-- ==== Proof.LayerBridge.lean ====
/-
  THE TWO PROGRAMS' GRAPH-CONVOLUTION LAYER TAILS AGREE.

  After the dense projection, the reference takes for every edge the source's projected row, scales it by
  d(source) · d(target), adds it into the target's row and adds the bias; the kernel's projection has already scaled row
  i by d i, and its tail takes for every edge the source's scaled row, adds it into the target's row, scales the sums by
  d(target) and adds the bias. Here both tails are read at an index (r, c), over variables first:

  * the kernel's is  d r · (0 + Σ_{e : target e = r} yw (src e, c)) + b c                       (kerSide_apply),
  * the reference's is  (0 + Σ_{e : target e = r} xw (src e, c) · (d (src e) · d (tgt e))) + b c   (refSide_apply),

  where the sum ranges over the edges the accumulating scatter sends to row r (those whose target word, read signed, is
  r — not clamped), src e is the source word wrapped (a negative word has N added) and clamped into [0, N − 1] as a
  gather reads it, and tgt e the same of the target word. For an edge of the sum the target word is already a row number
  in [0, N), which the wrap and the clamp leave alone, so tgt e = r (clampRow_wrap_of_rowDst). A node's weight,
  rsqrt(degree) where the degree is positive and 0 elsewhere, is a nonnegative real (where_rsqrt_nonneg_real), so it may
  be taken out of the sum; with yw i = xw i · d i the two readings are equal (tail_bridge_abstract), and the two
  programs' tails are instances of them (tail_bridge).
-/
import proofs.«132979_j77120432767264_2_alg».proof.Proof.LayerDefs
import proofs.«132979_j77120432767264_2_alg».proof.Proof.LibVecGather
import proofs.«132979_j77120432767264_2_alg».proof.Proof.LibRowGatherScatter
import proofs.«132979_j77120432767264_2_alg».proof.Proof.LibBroadcastInDim
import proofs.«132979_j77120432767264_2_alg».proof.Proof.LibKeepdims
import proofs.«132979_j77120432767264_2_alg».proof.Proof.GcnAlgebra

noncomputable section

open scoped BigOperators

namespace Cert.Bridge

open Idealize.ShloMosaic Idealize.ShloMosaic.ValueIdx

/-! ## The operations of a layer tail, over variables -/

section Abstract

/-- The wrap of possibly negative positions: `v + N` where `v` is negative as a signed integer, `v` elsewhere. -/
abbrev wrapIdx {S : Shape} (h : (⟨0, ![]⟩ : Shape).BroadcastsInDim S ![]) (N : Nat) (v : IVec S 32) : IVec S 32 :=
  select (cmpi .slt v (broadcastInDim S ![] h (constantI ⟨0, ![]⟩ 32 0#32)))
    (addi v (broadcastInDim S ![] h (constantI ⟨0, ![]⟩ 32 (BitVec.ofNat 32 N)))) v

/-- A word read as a signed integer and clamped into `[0, N − 1]`: the row a gather takes. -/
abbrev clampRow {N : Nat} (hN : 0 < N) (w : BitVec 32) : Fin N := ⟨min w.toInt.toNat (N - 1), by omega⟩

variable {N E K : Nat}

/-- The weight of a node, `rsqrt (deg)` where the degree is positive and `0` elsewhere, is a nonnegative real. -/
theorem where_rsqrt_nonneg_real {S : Shape} (h : (⟨0, ![]⟩ : Shape).BroadcastsInDim S ![]) (deg : FVec Ideal S .f32) (i : S.Idx) :
    ∃ r : ℝ, 0 ≤ r ∧
      select (cmpf .ogt deg (broadcastInDim S ![] h (constant ⟨0, ![]⟩ .f32 0x00000000#32))) (Host.rsqrt deg)
        (broadcastInDim S ![] h (constant ⟨0, ![]⟩ .f32 0x00000000#32)) i = ((r : ℝ) : EReal) := by
  have hz : broadcastInDim S ![] h (constant (F := Ideal) ⟨0, ![]⟩ .f32 0x00000000#32) i = (0 : EReal) := by
    rw [broadcastInDim_scalar_apply]
    show Ideal.ofBits .f32 0x00000000#32 = 0
    exact Ideal.ofBits_zero_f32
  show ∃ r : ℝ, 0 ≤ r ∧ Scalar.select (Ideal.cmp .ogt (deg i) (broadcastInDim S ![] h (constant (F := Ideal) ⟨0, ![]⟩ .f32 0x00000000#32) i))
    (Ideal.rsqrt (deg i)) (broadcastInDim S ![] h (constant (F := Ideal) ⟨0, ![]⟩ .f32 0x00000000#32) i) = ((r : ℝ) : EReal)
  rw [hz]
  unfold Scalar.select Ideal.cmp
  by_cases hpos : (0 : EReal) < deg i
  · obtain ⟨r, hr, hrs⟩ := rsqrt_pos_nonneg_real (deg i) hpos
    exact ⟨r, hr, by simp [hpos, hrs]⟩
  · exact ⟨0, le_refl _, by simp [hpos]⟩

/-- THE KERNEL'S TAIL READ AT `(r, c)`: the weight of node `r` times the sum, over the edges whose target is `r`, of the
    scaled table's row at the edge's source, plus the bias. -/
theorem kerSide_apply (hN : 0 < N)
    (wfG : GatherDims.WF ⟨2, ![N, K]⟩ ⟨2, ![E, 1]⟩ ⟨2, ![E, K]⟩ [1] [0] [] [0] [] 1 ![1, K])
    (wfS : ScatterDims.WF ⟨2, ![N, K]⟩ ⟨2, ![E, 1]⟩ ⟨2, ![E, K]⟩ [1] [0] [0] 1)
    (hb0 : (⟨0, ![]⟩ : Shape).BroadcastsInDim ⟨2, ![N, K]⟩ ![])
    (hs1 : (⟨0, ![]⟩ : Shape).BroadcastsInDim ⟨1, ![E]⟩ ![])
    (hbc : (⟨1, ![E]⟩ : Shape).BroadcastsInDim ⟨2, ![E, 1]⟩ ![0])
    (hb1 : (⟨2, ![N, 1]⟩ : Shape).BroadcastsInDim ⟨2, ![N, K]⟩ ![0, 1])
    (hbr : (⟨2, ![1, K]⟩ : Shape).BroadcastsInDim ⟨2, ![N, K]⟩ ![0, 1])
    (hbv : (⟨1, ![K]⟩ : Shape).BroadcastsInDim ⟨2, ![1, K]⟩ ![1])
    (hsc : (⟨1, ![N]⟩ : Shape).ShapeCasts ⟨2, ![N, 1]⟩)
    (hlt : FTy.bf16.bits < FTy.f32.bits)
    (yw : FVec Ideal ⟨2, ![N, K]⟩ .bf16) (v3 v6 : IVec ⟨1, ![E]⟩ 32) (d : FVec Ideal ⟨1, ![N]⟩ .f32)
    (b : FVec Ideal ⟨1, ![K]⟩ .f32) (r : Fin N) (c : Fin K) :
    addf (mulf (broadcastInDim ⟨2, ![N, K]⟩ ![0, 1] hb1 (shapeCast ⟨2, ![N, 1]⟩ d hsc))
        (Host.scatterAdd (rowScatterDims N E K wfS)
          (broadcastInDim ⟨2, ![N, K]⟩ ![] hb0 (constant ⟨0, ![]⟩ .f32 0x00000000#32))
          (broadcastInDim ⟨2, ![E, 1]⟩ ![0] hbc v6)
          (extf .f32 (Host.gather (rowGatherDims N E K wfG) yw (broadcastInDim ⟨2, ![E, 1]⟩ ![0] hbc (wrapIdx hs1 N v3))) hlt)))
      (broadcastInDim ⟨2, ![N, K]⟩ ![0, 1] hbr (broadcastInDim ⟨2, ![1, K]⟩ ![1] hbv b)) (ix2 r c)
    = d (ix1 r) * ((0 : EReal) + ∑ e ∈ Finset.univ.filter (fun e : Fin E => rowDst N (broadcastInDim ⟨2, ![E, 1]⟩ ![0] hbc v6) e = some r),
        (yw (ix2 (clampRow hN (wrapIdx hs1 N v3 (ix1 e))) c) : EReal)) + b (ix1 c) := by
  show (broadcastInDim ⟨2, ![N, K]⟩ ![0, 1] hb1 (shapeCast ⟨2, ![N, 1]⟩ d hsc) (ix2 r c) : EReal)
      * Ideal.hostScatterAdd (rowScatterDims N E K wfS)
          (broadcastInDim ⟨2, ![N, K]⟩ ![] hb0 (constant (F := Ideal) ⟨0, ![]⟩ .f32 0x00000000#32))
          (broadcastInDim ⟨2, ![E, 1]⟩ ![0] hbc v6)
          (extf .f32 (Host.gather (rowGatherDims N E K wfG) yw (broadcastInDim ⟨2, ![E, 1]⟩ ![0] hbc (wrapIdx hs1 N v3))) hlt) (ix2 r c)
      + broadcastInDim ⟨2, ![N, K]⟩ ![0, 1] hbr (broadcastInDim ⟨2, ![1, K]⟩ ![1] hbv b) (ix2 r c) = _
  rw [broadcastInDim_col_mat_apply, shapeCast_a_a1_apply, broadcastInDim_row_mat_apply, broadcastInDim_vec_row_apply,
    hostScatterAdd_row_apply, broadcastInDim_scalar_apply]
  have hz : constant (F := Ideal) ⟨0, ![]⟩ .f32 0x00000000#32 ix0 = (0 : EReal) := Ideal.ofBits_zero_f32
  rw [hz]
  congr 3
  refine Finset.sum_congr rfl fun e _ => ?_
  show Host.gather (rowGatherDims N E K wfG) yw (broadcastInDim ⟨2, ![E, 1]⟩ ![0] hbc (wrapIdx hs1 N v3)) (ix2 e c) = _
  rw [rowGather_apply hN]
  show yw (ix2 (clampRow hN (broadcastInDim ⟨2, ![E, 1]⟩ ![0] hbc (wrapIdx hs1 N v3) (ix2 e (0 : Fin 1)))) c) = _
  rw [broadcastInDim_vec_col_apply]

/-- THE REFERENCE'S TAIL READ AT `(r, c)`: the sum, over the edges whose target is `r`, of the table's row at the edge's
    source weighted by the weights of the edge's two ends, plus the bias. -/
theorem refSide_apply (hN : 0 < N)
    (wfG : GatherDims.WF ⟨2, ![N, K]⟩ ⟨2, ![E, 1]⟩ ⟨2, ![E, K]⟩ [1] [0] [] [0] [] 1 ![1, K])
    (wfV : GatherDims.WF ⟨1, ![N]⟩ ⟨2, ![E, 1]⟩ ⟨1, ![E]⟩ [] [0] [] [0] [] 1 ![1])
    (wfS : ScatterDims.WF ⟨2, ![N, K]⟩ ⟨2, ![E, 1]⟩ ⟨2, ![E, K]⟩ [1] [0] [0] 1)
    (hb0 : (⟨0, ![]⟩ : Shape).BroadcastsInDim ⟨2, ![N, K]⟩ ![])
    (hs1 : (⟨0, ![]⟩ : Shape).BroadcastsInDim ⟨1, ![E]⟩ ![])
    (hbc : (⟨1, ![E]⟩ : Shape).BroadcastsInDim ⟨2, ![E, 1]⟩ ![0])
    (hbm : (⟨2, ![E, 1]⟩ : Shape).BroadcastsInDim ⟨2, ![E, K]⟩ ![0, 1])
    (hbr : (⟨2, ![1, K]⟩ : Shape).BroadcastsInDim ⟨2, ![N, K]⟩ ![0, 1])
    (hbv : (⟨1, ![K]⟩ : Shape).BroadcastsInDim ⟨2, ![1, K]⟩ ![1])
    (xw : FVec Ideal ⟨2, ![N, K]⟩ .f32) (v3 v6 : IVec ⟨1, ![E]⟩ 32) (d : FVec Ideal ⟨1, ![N]⟩ .f32)
    (b : FVec Ideal ⟨1, ![K]⟩ .f32) (r : Fin N) (c : Fin K) :
    addf (Host.scatterAdd (rowScatterDims N E K wfS)
        (broadcastInDim ⟨2, ![N, K]⟩ ![] hb0 (constant ⟨0, ![]⟩ .f32 0x00000000#32))
        (broadcastInDim ⟨2, ![E, 1]⟩ ![0] hbc v6)
        (mulf (Host.gather (rowGatherDims N E K wfG) xw (broadcastInDim ⟨2, ![E, 1]⟩ ![0] hbc (wrapIdx hs1 N v3)))
          (broadcastInDim ⟨2, ![E, K]⟩ ![0, 1] hbm (broadcastInDim ⟨2, ![E, 1]⟩ ![0] hbc
            (mulf (Host.gather (vecGatherDims N E wfV) d (broadcastInDim ⟨2, ![E, 1]⟩ ![0] hbc (wrapIdx hs1 N v3)))
              (Host.gather (vecGatherDims N E wfV) d (broadcastInDim ⟨2, ![E, 1]⟩ ![0] hbc (wrapIdx hs1 N v6))))))))
      (broadcastInDim ⟨2, ![N, K]⟩ ![0, 1] hbr (broadcastInDim ⟨2, ![1, K]⟩ ![1] hbv b)) (ix2 r c)
    = ((0 : EReal) + ∑ e ∈ Finset.univ.filter (fun e : Fin E => rowDst N (broadcastInDim ⟨2, ![E, 1]⟩ ![0] hbc v6) e = some r),
        (xw (ix2 (clampRow hN (wrapIdx hs1 N v3 (ix1 e))) c) : EReal)
          * (d (ix1 (clampRow hN (wrapIdx hs1 N v3 (ix1 e)))) * d (ix1 (clampRow hN (wrapIdx hs1 N v6 (ix1 e)))))) + b (ix1 c) := by
  show Ideal.hostScatterAdd (rowScatterDims N E K wfS)
        (broadcastInDim ⟨2, ![N, K]⟩ ![] hb0 (constant (F := Ideal) ⟨0, ![]⟩ .f32 0x00000000#32))
        (broadcastInDim ⟨2, ![E, 1]⟩ ![0] hbc v6)
        (mulf (Host.gather (rowGatherDims N E K wfG) xw (broadcastInDim ⟨2, ![E, 1]⟩ ![0] hbc (wrapIdx hs1 N v3)))
          (broadcastInDim ⟨2, ![E, K]⟩ ![0, 1] hbm (broadcastInDim ⟨2, ![E, 1]⟩ ![0] hbc
            (mulf (Host.gather (vecGatherDims N E wfV) d (broadcastInDim ⟨2, ![E, 1]⟩ ![0] hbc (wrapIdx hs1 N v3)))
              (Host.gather (vecGatherDims N E wfV) d (broadcastInDim ⟨2, ![E, 1]⟩ ![0] hbc (wrapIdx hs1 N v6))))))) (ix2 r c)
      + broadcastInDim ⟨2, ![N, K]⟩ ![0, 1] hbr (broadcastInDim ⟨2, ![1, K]⟩ ![1] hbv b) (ix2 r c) = _
  rw [broadcastInDim_row_mat_apply, broadcastInDim_vec_row_apply, hostScatterAdd_row_apply, broadcastInDim_scalar_apply]
  have hz : constant (F := Ideal) ⟨0, ![]⟩ .f32 0x00000000#32 ix0 = (0 : EReal) := Ideal.ofBits_zero_f32
  rw [hz]
  congr 2
  refine Finset.sum_congr rfl fun e _ => ?_
  show (Host.gather (rowGatherDims N E K wfG) xw (broadcastInDim ⟨2, ![E, 1]⟩ ![0] hbc (wrapIdx hs1 N v3)) (ix2 e c) : EReal)
      * broadcastInDim ⟨2, ![E, K]⟩ ![0, 1] hbm (broadcastInDim ⟨2, ![E, 1]⟩ ![0] hbc
            (mulf (Host.gather (vecGatherDims N E wfV) d (broadcastInDim ⟨2, ![E, 1]⟩ ![0] hbc (wrapIdx hs1 N v3)))
              (Host.gather (vecGatherDims N E wfV) d (broadcastInDim ⟨2, ![E, 1]⟩ ![0] hbc (wrapIdx hs1 N v6))))) (ix2 e c) = _
  rw [broadcastInDim_col_mat_apply, broadcastInDim_vec_col_apply, rowGather_apply hN]
  show (xw (ix2 (clampRow hN (broadcastInDim ⟨2, ![E, 1]⟩ ![0] hbc (wrapIdx hs1 N v3) (ix2 e (0 : Fin 1)))) c) : EReal)
      * ((Host.gather (vecGatherDims N E wfV) d (broadcastInDim ⟨2, ![E, 1]⟩ ![0] hbc (wrapIdx hs1 N v3)) (ix1 e) : EReal)
        * Host.gather (vecGatherDims N E wfV) d (broadcastInDim ⟨2, ![E, 1]⟩ ![0] hbc (wrapIdx hs1 N v6)) (ix1 e)) = _
  rw [vecGather_apply hN, vecGather_apply hN]
  show (xw (ix2 (clampRow hN (broadcastInDim ⟨2, ![E, 1]⟩ ![0] hbc (wrapIdx hs1 N v3) (ix2 e (0 : Fin 1)))) c) : EReal)
      * (d (ix1 (clampRow hN (broadcastInDim ⟨2, ![E, 1]⟩ ![0] hbc (wrapIdx hs1 N v3) (ix2 e (0 : Fin 1)))))
        * d (ix1 (clampRow hN (broadcastInDim ⟨2, ![E, 1]⟩ ![0] hbc (wrapIdx hs1 N v6) (ix2 e (0 : Fin 1)))))) = _
  rw [broadcastInDim_vec_col_apply, broadcastInDim_vec_col_apply]

/-- An edge that the scatter sends to row `r` has `r` as the clamped wrap of its target word: the word is then a row
    number in `[0, N)`, which the wrap and the clamp leave alone. -/
theorem clampRow_wrap_of_rowDst (hN : 0 < N)
    (hs1 : (⟨0, ![]⟩ : Shape).BroadcastsInDim ⟨1, ![E]⟩ ![])
    (hbc : (⟨1, ![E]⟩ : Shape).BroadcastsInDim ⟨2, ![E, 1]⟩ ![0])
    (v6 : IVec ⟨1, ![E]⟩ 32) (e : Fin E) (r : Fin N)
    (he : rowDst N (broadcastInDim ⟨2, ![E, 1]⟩ ![0] hbc v6) e = some r) :
    clampRow hN (wrapIdx hs1 N v6 (ix1 e)) = r := by
  unfold rowDst at he
  split at he
  · rename_i h
    have hr : (broadcastInDim ⟨2, ![E, 1]⟩ ![0] hbc v6 (ix2 e (0 : Fin 1))).toInt.toNat = r.val :=
      congrArg Fin.val (Option.some.inj he)
    rw [broadcastInDim_vec_col_apply] at h hr
    have hw : wrapIdx hs1 N v6 (ix1 e) = v6 (ix1 e) := wrapNeg_apply_of_nonneg hs1 N v6 (ix1 e) h.1
    refine Fin.ext ?_
    show min (wrapIdx hs1 N v6 (ix1 e)).toInt.toNat (N - 1) = r.val
    rw [hw, ← hr]
    omega
  · exact absurd he (by simp)

/-- THE TWO TAILS AGREE, over variables: with the scaled table `yw i = xw i · d i` and nonnegative real weights `d`. -/
theorem tail_bridge_abstract (hN : 0 < N)
    (wfG : GatherDims.WF ⟨2, ![N, K]⟩ ⟨2, ![E, 1]⟩ ⟨2, ![E, K]⟩ [1] [0] [] [0] [] 1 ![1, K])
    (wfV : GatherDims.WF ⟨1, ![N]⟩ ⟨2, ![E, 1]⟩ ⟨1, ![E]⟩ [] [0] [] [0] [] 1 ![1])
    (wfS : ScatterDims.WF ⟨2, ![N, K]⟩ ⟨2, ![E, 1]⟩ ⟨2, ![E, K]⟩ [1] [0] [0] 1)
    (hb0 : (⟨0, ![]⟩ : Shape).BroadcastsInDim ⟨2, ![N, K]⟩ ![])
    (hs1 : (⟨0, ![]⟩ : Shape).BroadcastsInDim ⟨1, ![E]⟩ ![])
    (hbc : (⟨1, ![E]⟩ : Shape).BroadcastsInDim ⟨2, ![E, 1]⟩ ![0])
    (hbm : (⟨2, ![E, 1]⟩ : Shape).BroadcastsInDim ⟨2, ![E, K]⟩ ![0, 1])
    (hb1 : (⟨2, ![N, 1]⟩ : Shape).BroadcastsInDim ⟨2, ![N, K]⟩ ![0, 1])
    (hbr : (⟨2, ![1, K]⟩ : Shape).BroadcastsInDim ⟨2, ![N, K]⟩ ![0, 1])
    (hbv : (⟨1, ![K]⟩ : Shape).BroadcastsInDim ⟨2, ![1, K]⟩ ![1])
    (hsc : (⟨1, ![N]⟩ : Shape).ShapeCasts ⟨2, ![N, 1]⟩)
    (hlt : FTy.bf16.bits < FTy.f32.bits)
    (xw : FVec Ideal ⟨2, ![N, K]⟩ .f32) (yw : FVec Ideal ⟨2, ![N, K]⟩ .bf16) (v3 v6 : IVec ⟨1, ![E]⟩ 32)
    (d : FVec Ideal ⟨1, ![N]⟩ .f32) (b : FVec Ideal ⟨1, ![K]⟩ .f32)
    (hyw : ∀ (p : Fin N) (q : Fin K), (yw (ix2 p q) : EReal) = xw (ix2 p q) * d (ix1 p))
    (hd : ∀ p : Fin N, ∃ t : ℝ, 0 ≤ t ∧ (d (ix1 p) : EReal) = ((t : ℝ) : EReal)) :
    addf (mulf (broadcastInDim ⟨2, ![N, K]⟩ ![0, 1] hb1 (shapeCast ⟨2, ![N, 1]⟩ d hsc))
        (Host.scatterAdd (rowScatterDims N E K wfS)
          (broadcastInDim ⟨2, ![N, K]⟩ ![] hb0 (constant ⟨0, ![]⟩ .f32 0x00000000#32))
          (broadcastInDim ⟨2, ![E, 1]⟩ ![0] hbc v6)
          (extf .f32 (Host.gather (rowGatherDims N E K wfG) yw (broadcastInDim ⟨2, ![E, 1]⟩ ![0] hbc (wrapIdx hs1 N v3))) hlt)))
      (broadcastInDim ⟨2, ![N, K]⟩ ![0, 1] hbr (broadcastInDim ⟨2, ![1, K]⟩ ![1] hbv b))
    = addf (Host.scatterAdd (rowScatterDims N E K wfS)
        (broadcastInDim ⟨2, ![N, K]⟩ ![] hb0 (constant ⟨0, ![]⟩ .f32 0x00000000#32))
        (broadcastInDim ⟨2, ![E, 1]⟩ ![0] hbc v6)
        (mulf (Host.gather (rowGatherDims N E K wfG) xw (broadcastInDim ⟨2, ![E, 1]⟩ ![0] hbc (wrapIdx hs1 N v3)))
          (broadcastInDim ⟨2, ![E, K]⟩ ![0, 1] hbm (broadcastInDim ⟨2, ![E, 1]⟩ ![0] hbc
            (mulf (Host.gather (vecGatherDims N E wfV) d (broadcastInDim ⟨2, ![E, 1]⟩ ![0] hbc (wrapIdx hs1 N v3)))
              (Host.gather (vecGatherDims N E wfV) d (broadcastInDim ⟨2, ![E, 1]⟩ ![0] hbc (wrapIdx hs1 N v6))))))))
      (broadcastInDim ⟨2, ![N, K]⟩ ![0, 1] hbr (broadcastInDim ⟨2, ![1, K]⟩ ![1] hbv b)) := by
  funext i
  rw [eq_ix2 i]
  refine (kerSide_apply hN wfG wfS hb0 hs1 hbc hb1 hbr hbv hsc hlt yw v3 v6 d b (i 0) (i 1)).trans ?_
  refine Eq.trans ?_ (refSide_apply hN wfG wfV wfS hb0 hs1 hbc hbm hbr hbv xw v3 v6 d b (i 0) (i 1)).symm
  obtain ⟨t, ht, hdt⟩ := hd (i 0)
  exact GcnAlgebra.aggregate_scaled _ (fun e => clampRow hN (wrapIdx hs1 N v3 (ix1 e)))
    (fun e => clampRow hN (wrapIdx hs1 N v6 (ix1 e))) (i 0)
    (fun e he => clampRow_wrap_of_rowDst hN hs1 hbc v6 e (i 0) (Finset.mem_filter.mp he).2)
    (fun p => d (ix1 p)) t ht hdt (fun p => xw (ix2 p (i 1))) (fun p => yw (ix2 p (i 1))) (fun p => hyw p (i 1))
    0 (b (ix1 (i 1))) rfl

end Abstract

/-! ## The two programs' tails -/

section Concrete

open Cert.ReferenceIdeal.Read

variable [hK : Cert.KernelIdeal.Facts] [hR : Cert.ReferenceIdeal.Facts]

/-- The reference's node weight is a nonnegative real at every node. -/
theorem weight_nonneg_real (x1 : (⟨Cert.ReferenceIdeal.S2x1600000, .i32⟩ : BufTy).Contents (Elt Ideal)) (p : Fin 100000) :
    ∃ t : ℝ, 0 ≤ t ∧ (val_main_v14 (F := Ideal) x1 (ix1 p) : EReal) = ((t : ℝ) : EReal) :=
  where_rsqrt_nonneg_real _ (val_main_v10 (F := Ideal) x1) (ix1 p)

/-- THE KERNEL'S TAIL, on the scaled table and the reference's own edge stages and weights, IS THE REFERENCE'S TAIL. -/
theorem tail_bridge (x1 : (⟨Cert.ReferenceIdeal.S2x1600000, .i32⟩ : BufTy).Contents (Elt Ideal))
    (b : (⟨Cert.ReferenceIdeal.S64, .f32⟩ : BufTy).Contents (Elt Ideal))
    (xw : (⟨Cert.ReferenceIdeal.S100000x64, .f32⟩ : BufTy).Contents (Elt Ideal))
    (yw : (⟨Cert.KernelIdeal.S100000x64, .bf16⟩ : BufTy).Contents (Elt Ideal))
    (hyw : ∀ (p : Fin 100000) (q : Fin 64),
      (yw (ValueIdx.ix2 p q) : EReal) = xw (ValueIdx.ix2 p q) * val_main_v14 (F := Ideal) x1 (ValueIdx.ix1 p)) :
    kerTail yw (val_main_v3 (F := Ideal) x1) (val_main_v6 (F := Ideal) x1) (dcol x1) b = refTail xw x1 b := by
  unfold kerTail refTail dcol val_main_v45 val_main_v44 val_main_v41 val_main_cst_8 val_main_v42 val_main_v39 val_main_v38
    val_main_v36 val_main_v35 val_main_v34 val_main_v33 val_main_c_7 val_main_v32 val_main_v31 val_main_c_6 val_main_v30
    val_main_v29 val_main_v28 val_main_v27 val_main_v26 val_main_v25 val_main_c_5 val_main_v24 val_main_v23 val_main_c_4
    val_main_v22 val_main_v21 val_main_v20 val_main_v19 val_main_v18 val_main_c_3 val_main_v17 val_main_v16 val_main_c
  exact tail_bridge_abstract (N := 100000) (E := 1700000) (K := 64) (by decide) _ _ _ _ _ _ _ _ _ _ _ _ xw yw
    (val_main_v3 (F := Ideal) x1) (val_main_v6 (F := Ideal) x1) (val_main_v14 (F := Ideal) x1) b hyw
    (weight_nonneg_real x1)

end Concrete

end Cert.Bridge

end
-- ==== Proof.RefStages.lean ====
/-
  The reference's stages, layer by layer: each graph-convolution layer is the layer tail of its dense projection, the
  pooled rows are the mean over each graph of the third layer's rows, and each dense projection read at a row and a
  column is the sum over the inner axis.
-/
import proofs.«132979_j77120432767264_2_alg».proof.Proof.LayerDefs
import proofs.«132979_j77120432767264_2_alg».proof.Proof.LibKeepdims

noncomputable section

open scoped BigOperators

namespace Cert.Bridge

open Idealize.ShloMosaic Idealize.ShloMosaic.ValueIdx Cert.ReferenceIdeal.Read

variable [hK : Cert.KernelIdeal.Facts] [hR : Cert.ReferenceIdeal.Facts]

/-- The first layer is the layer tail of x W1. -/
theorem layer1_eq (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) :
    val_main_v46 (F := Ideal) x0 x1 x3 x4 = refTail (val_main_v15 (F := Ideal) x0 x3) x1 x4 := rfl

/-- The second layer is the layer tail of h1 W2. -/
theorem layer2_eq (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) :
    val_main_v78 (F := Ideal) x0 x1 x3 x4 x5 x6 = refTail (val_main_v47 (F := Ideal) x0 x1 x3 x4 x5) x1 x6 := rfl

/-- The third layer is the layer tail of h2 W3. -/
theorem layer3_eq (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) :
    val_main_v110 (F := Ideal) x0 x1 x3 x4 x5 x6 x7 x8 = refTail (val_main_v79 (F := Ideal) x0 x1 x3 x4 x5 x6 x7) x1 x8 := rfl

/-- The pooled rows are the per-graph mean of the third layer's rows. -/
theorem pooled_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) :
    val_main_v122 (F := Ideal) x0 x1 x2 x3 x4 x5 x6 x7 x8 = pool (val_main_v110 (F := Ideal) x0 x1 x3 x4 x5 x6 x7 x8) x2 := rfl

/-- x W1 at (p, q). -/
theorem proj1_ix (x0 : (⟨Cert.ReferenceIdeal.S100000x128, .f32⟩ : BufTy).Contents (Elt Ideal)) (x3 : (⟨Cert.ReferenceIdeal.S128x64, .f32⟩ : BufTy).Contents (Elt Ideal)) (p : Fin 100000) (q : Fin 64) :
    val_main_v15 (F := Ideal) x0 x3 (ix2 p q) = ∑ j : Fin 128, x0 (ix2 p j) * x3 (ix2 j q) :=
  (val_main_v15_apply x0 x3 (ix2 p q)).trans (Finset.sum_congr rfl fun k _ => by
    congr 2 <;> (funext a; refine Fin.ext ?_; match a with | ⟨0, _⟩ => rfl | ⟨1, _⟩ => rfl))

/-- h1 W2 at (p, q). -/
theorem proj2_ix (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (p : Fin 100000) (q : Fin 64) :
    val_main_v47 (F := Ideal) x0 x1 x3 x4 x5 (ix2 p q) = ∑ j : Fin 64, val_main_v46 (F := Ideal) x0 x1 x3 x4 (ix2 p j) * x5 (ix2 j q) :=
  (val_main_v47_apply x0 x1 x3 x4 x5 (ix2 p q)).trans (Finset.sum_congr rfl fun k _ => by
    congr 2 <;> (funext a; refine Fin.ext ?_; match a with | ⟨0, _⟩ => rfl | ⟨1, _⟩ => rfl))

/-- h2 W3 at (p, q). -/
theorem proj3_ix (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (p : Fin 100000) (q : Fin 64) :
    val_main_v79 (F := Ideal) x0 x1 x3 x4 x5 x6 x7 (ix2 p q) = ∑ j : Fin 64, val_main_v78 (F := Ideal) x0 x1 x3 x4 x5 x6 (ix2 p j) * x7 (ix2 j q) :=
  (val_main_v79_apply x0 x1 x3 x4 x5 x6 x7 (ix2 p q)).trans (Finset.sum_congr rfl fun k _ => by
    congr 2 <;> (funext a; refine Fin.ext ?_; match a with | ⟨0, _⟩ => rfl | ⟨1, _⟩ => rfl))

/-- pooled Wl at (p, q). -/
theorem proj4_ix (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x10, .f32⟩ : BufTy).Contents (Elt Ideal)) (p : Fin 1024) (q : Fin 10) :
    val_main_v123 (F := Ideal) x0 x1 x2 x3 x4 x5 x6 x7 x8 x9 (ix2 p q)
      = ∑ j : Fin 64, val_main_v122 (F := Ideal) x0 x1 x2 x3 x4 x5 x6 x7 x8 (ix2 p j) * x9 (ix2 j q) :=
  (val_main_v123_apply x0 x1 x2 x3 x4 x5 x6 x7 x8 x9 (ix2 p q)).trans (Finset.sum_congr rfl fun k _ => by
    congr 2 <;> (funext a; refine Fin.ext ?_; match a with | ⟨0, _⟩ => rfl | ⟨1, _⟩ => rfl))

/-- The node weights as a column, at (p, 0): node p's weight. -/
theorem dcol_ix (x1 : (⟨Cert.ReferenceIdeal.S2x1600000, .i32⟩ : BufTy).Contents (Elt Ideal)) (p : Fin 100000) :
    dcol x1 (ix2 p (0 : Fin 1)) = val_main_v14 (F := Ideal) x1 (ix1 p) :=
  shapeCast_a_a1_apply _ _ p 0

end Cert.Bridge

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.RegionScaled0.lean ====
/-
  The first scaled-product region read as a whole array: the product of the rows of x with the columns of W, each row scaled by its entry of the column d. Each grid point's stored block is rows 5000 t to 5000 t + 4999 of that array, and the twenty blocks cover it.
-/
import proofs.«132979_j77120432767264_2_alg».proof.Proof.Gen.KernelIdeal.Frame
import proofs.«132979_j77120432767264_2_alg».proof.Proof.LibDotIx2
import proofs.«132979_j77120432767264_2_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-- The zero offset of a block's accesses. -/
private theorem hz : (![0, 0] : Fin 2 → Nat) = fun _ => 0 := funext fun a => by fin_cases a <;> rfl

/-! # Region 0: the scaled product, blocks of 5000 rows to the whole array -/

/-- The region's contraction is a plain 5000 x 128 by 128 x 64 product. -/
theorem plainDot0 : PlainDot dot_S5000x128_S128x64_S5000x64_1_0_0_1_n_n where
  rank := rfl
  size := rfl
  l0 := fun _ _ => rfl
  l1 := fun _ _ => rfl
  r0 := fun _ _ => rfl
  r1 := fun _ _ => rfl

/-- The body's stored value at row r and column q of a block: the row of x times the column of W, scaled by the row's entry of d
    (the changes of float format are the identity on extended reals). -/
theorem pay0_apply (x0 : Vec Ideal S5000x128 .f32) (x1 : Vec Ideal S128x64 .f32) (x2 : Vec Ideal S5000x1 .f32)
    (r : Fin 5000) (q : Fin 64) :
    k0_pay1 x0 x1 x2 (ix2 r q)
      = (∑ k : Fin 128, (x0 (ix2 r k) : EReal) * (x1 (ix2 k q) : EReal)) * (x2 (ix2 r (0 : Fin 1)) : EReal) := by
  unfold k0_pay1
  rw [truncf_apply, mulf_apply, shapeCast_self, broadcastTo_a1_ab_apply]
  exact congrArg (· * (x2 (ix2 r (0 : Fin 1)) : EReal)) (matmul_zero_ix2_any plainDot0 none _ _ r q)

/-- Row p of X times column q of W, scaled by D at row p. -/
abbrev scaledAt0 (X : S100000x128.Idx → EReal) (W : S128x64.Idx → EReal) (D : S100000x1.Idx → EReal) (p : Fin 100000) (q : Fin 64) : EReal :=
  (∑ j : Fin 128, X (ix2 p j) * W (ix2 j q)) * D (ix2 p (0 : Fin 1))

/-- The same as a whole array. -/
def scaled0 (X : S100000x128.Idx → EReal) (W : S128x64.Idx → EReal) (D : S100000x1.Idx → EReal) : S100000x64.Idx → EReal :=
  fun i => scaledAt0 X W D (i 0) (i 1)

theorem scaled0_apply (X : S100000x128.Idx → EReal) (W : S128x64.Idx → EReal) (D : S100000x1.Idx → EReal) (p : Fin 100000) (q : Fin 64) :
    scaled0 X W D (ix2 p q) = (∑ j : Fin 128, X (ix2 p j) * W (ix2 j q)) * D (ix2 p (0 : Fin 1)) := rfl

section
variable (V : (c : Dev nD) → (b : Ref sig .tc) → Buf (Elt Ideal) ((c : Thread nD τ).loc b))

/-- The printed index maps over the grid: the row-blocked windows are at block t, the weight window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point t is rows 5000 t … 5000 t + 4999 of x. -/
theorem iblk0_0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- Window 1's block at every point is the whole of W. -/
theorem iblk0_1_apply (c : Dev nD) (t : Fin cfg0.N) (x : S128x64.Idx) :
    (iblk0 V c 1 t : Vec Ideal S128x64 .f32) x = (V c main_arg3 : S128x64.Idx → EReal) x := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 64 + 1 * (x 1).val = (x 1).val; rw [e1]; omega

/-- Window 2's block at point t is rows 5000 t … 5000 t + 4999 of d. -/
theorem iblk0_2_apply (c : Dev nD) (t : Fin cfg0.N) (x : S5000x1.Idx) (k : S100000x1.Idx)
    (hk0 : (k 0).val = 5000 * t.val + (x 0).val) (hk1 : (k 1).val = (x 1).val) :
    (iblk0 V c 2 t : Vec Ideal S5000x1 .f32) x = (V c main_v15 : S100000x1.Idx → EReal) k := by
  obtain ⟨-, -, -, -, e0, e1, -⟩ := idx_facts0 t
  unfold iblk0
  rw [View.read_apply]
  show V c main_v15 _ = V c main_v15 _
  congr 1
  funext a
  apply Fin.ext
  match a with
  | ⟨0, _⟩ => show win0_2.index t (0 : Fin 2) * 5000 + 1 * (x 0).val = (k 0).val; rw [e0, hk0]; omega
  | ⟨1, _⟩ => show win0_2.index t (1 : Fin 2) * 1 + 1 * (x 1).val = (k 1).val; rw [e1, hk1]; omega

/-- What point t writes back is block t of the whole-array function. -/
theorem flushed0_eq (c : Dev nD) (t : Fin cfg0.N) :
    (dat0 (F := Ideal) V c).flushed 3 t
      = ((cfg0.win 3).blk t).view.read (Elt Ideal) (scaled0 (V c main_arg0) (V c main_arg3) (V c main_v15)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x64) hz, View.ld_unit_zero (S := S5000x1) hz]
  obtain ⟨-, -, -, -, -, -, e0, e1⟩ := idx_facts0 t
  have hN : t.val < 20 := lt_of_lt_of_eq t.isLt N_0
  funext y
  obtain ⟨r, q, rfl⟩ : ∃ (r : Fin 5000) (q : Fin 64), y = ix2 r q := ⟨y 0, y 1, eq_ix2 y⟩
  refine (pay0_apply (iblk0 V c 0 t) (iblk0 V c 1 t) (iblk0 V c 2 t) r q).trans ?_
  have hemb : ((cfg0.win 3).blk t).view.emb (ix2 r q) = ix2 (⟨5000 * t.val + r.val, by omega⟩ : Fin 100000) q := by
    funext a
    apply Fin.ext
    match a with
    | ⟨0, _⟩ => show win0_3.index t (0 : Fin 2) * 5000 + 1 * r.val = 5000 * t.val + r.val; rw [e0]; omega
    | ⟨1, _⟩ => show win0_3.index t (1 : Fin 2) * 64 + 1 * q.val = q.val; rw [e1]; omega
  rw [View.read_apply, hemb, scaled0_apply]
  rw [iblk0_2_apply V c t (ix2 r (0 : Fin 1)) (ix2 (⟨5000 * t.val + r.val, by omega⟩ : Fin 100000) (0 : Fin 1)) rfl rfl]
  refine congrArg (· * _) (Finset.sum_congr rfl fun k _ => ?_)
  rw [iblk0_0_apply V c t (ix2 r k) (ix2 (⟨5000 * t.val + r.val, by omega⟩ : Fin 100000) k) rfl rfl, iblk0_1_apply V c t (ix2 k q)]

/-- An index of the output array is in point t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Every index of the output array is in the block of the point its row falls in: row p is in block p / 5000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, lt_of_lt_of_eq (by omega) N_0.symm⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

/-- The output array after the region is the whole-array function of the arrays the region finds. -/
theorem final0 (c : Dev nD) :
    (dat0 (F := Ideal) V c).arrAt 3 cfg0.N = scaled0 (V c main_arg0) (V c main_arg3) (V c main_v15) :=
  (dat0 (F := Ideal) V c).arrAt_eq_of_cover 3 (scaled0 (V c main_arg0) (V c main_arg3) (V c main_v15))
    (fun t _ => flushed0_eq V c t) cover0

/-- Region 0's output at row p and column q: the p-th row of x times the q-th column of W, scaled by d at row p. -/
theorem scaled0_value (c : Dev nD) (p : Fin 100000) (q : Fin 64) :
    (dat0 (F := Ideal) V c).arrAt 3 cfg0.N (ix2 p q) = scaledAt0 (V c main_arg0) (V c main_arg3) (V c main_v15) p q := by
  rw [final0]
  rfl

end

end Cert.KernelIdeal.RegionValue

end
-- ==== Proof.RegionScaled1.lean ====
/-
  The second scaled-product region read as a whole array: the product of the rows of x with the columns of W, each row scaled by its entry of the column d. Each grid point's stored block is rows 5000 t to 5000 t + 4999 of that array, and the twenty blocks cover it.
-/
import proofs.«132979_j77120432767264_2_alg».proof.Proof.Gen.KernelIdeal.Frame
import proofs.«132979_j77120432767264_2_alg».proof.Proof.LibDotIx2
import proofs.«132979_j77120432767264_2_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-- The zero offset of a block's accesses. -/
private theorem hz : (![0, 0] : Fin 2 → Nat) = fun _ => 0 := funext fun a => by fin_cases a <;> rfl

/-! # Region 1: the scaled product, blocks of 5000 rows to the whole array -/

/-- The region's contraction is a plain 5000 x 64 by 64 x 64 product. -/
theorem plainDot1 : PlainDot dot_S5000x64_S64x64_S5000x64_1_0_0_1_n_n where
  rank := rfl
  size := rfl
  l0 := fun _ _ => rfl
  l1 := fun _ _ => rfl
  r0 := fun _ _ => rfl
  r1 := fun _ _ => rfl

/-- The body's stored value at row r and column q of a block: the row of x times the column of W, scaled by the row's entry of d
    (the changes of float format are the identity on extended reals). -/
theorem pay1_apply (x0 : Vec Ideal S5000x64 .f32) (x1 : Vec Ideal S64x64 .f32) (x2 : Vec Ideal S5000x1 .f32)
    (r : Fin 5000) (q : Fin 64) :
    k1_pay1 x0 x1 x2 (ix2 r q)
      = (∑ k : Fin 64, (x0 (ix2 r k) : EReal) * (x1 (ix2 k q) : EReal)) * (x2 (ix2 r (0 : Fin 1)) : EReal) := by
  unfold k1_pay1
  rw [truncf_apply, mulf_apply, shapeCast_self, broadcastTo_a1_ab_apply, shapeCast_self]
  exact congrArg (· * (x2 (ix2 r (0 : Fin 1)) : EReal)) (matmul_zero_ix2_any plainDot1 none _ _ r q)

/-- Row p of X times column q of W, scaled by D at row p. -/
abbrev scaledAt1 (X : S100000x64.Idx → EReal) (W : S64x64.Idx → EReal) (D : S100000x1.Idx → EReal) (p : Fin 100000) (q : Fin 64) : EReal :=
  (∑ j : Fin 64, X (ix2 p j) * W (ix2 j q)) * D (ix2 p (0 : Fin 1))

/-- The same as a whole array. -/
def scaled1 (X : S100000x64.Idx → EReal) (W : S64x64.Idx → EReal) (D : S100000x1.Idx → EReal) : S100000x64.Idx → EReal :=
  fun i => scaledAt1 X W D (i 0) (i 1)

theorem scaled1_apply (X : S100000x64.Idx → EReal) (W : S64x64.Idx → EReal) (D : S100000x1.Idx → EReal) (p : Fin 100000) (q : Fin 64) :
    scaled1 X W D (ix2 p q) = (∑ j : Fin 64, X (ix2 p j) * W (ix2 j q)) * D (ix2 p (0 : Fin 1)) := rfl

section
variable (V : (c : Dev nD) → (b : Ref sig .tc) → Buf (Elt Ideal) ((c : Thread nD τ).loc b))

/-- The printed index maps over the grid: the row-blocked windows are at block t, the weight window at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Window 0's block at point t is rows 5000 t … 5000 t + 4999 of x. -/
theorem iblk1_0_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v32 : S100000x64.Idx → EReal) k := by
  obtain ⟨e0, e1, -⟩ := idx_facts1 t
  unfold iblk1
  rw [View.read_apply]
  show V c main_v32 _ = V c main_v32 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- Window 1's block at every point is the whole of W. -/
theorem iblk1_1_apply (c : Dev nD) (t : Fin cfg1.N) (x : S64x64.Idx) :
    (iblk1 V c 1 t : Vec Ideal S64x64 .f32) x = (V c main_arg5 : S64x64.Idx → EReal) x := by
  obtain ⟨-, -, e0, e1, -⟩ := idx_facts1 t
  unfold iblk1
  rw [View.read_apply]
  show V c main_arg5 _ = V c main_arg5 _
  congr 1
  funext a
  apply Fin.ext
  match a with
  | ⟨0, _⟩ => show win1_1.index t (0 : Fin 2) * 64 + 1 * (x 0).val = (x 0).val; rw [e0]; omega
  | ⟨1, _⟩ => show win1_1.index t (1 : Fin 2) * 64 + 1 * (x 1).val = (x 1).val; rw [e1]; omega

/-- Window 2's block at point t is rows 5000 t … 5000 t + 4999 of d. -/
theorem iblk1_2_apply (c : Dev nD) (t : Fin cfg1.N) (x : S5000x1.Idx) (k : S100000x1.Idx)
    (hk0 : (k 0).val = 5000 * t.val + (x 0).val) (hk1 : (k 1).val = (x 1).val) :
    (iblk1 V c 2 t : Vec Ideal S5000x1 .f32) x = (V c main_v15 : S100000x1.Idx → EReal) k := by
  obtain ⟨-, -, -, -, e0, e1, -⟩ := idx_facts1 t
  unfold iblk1
  rw [View.read_apply]
  show V c main_v15 _ = V c main_v15 _
  congr 1
  funext a
  apply Fin.ext
  match a with
  | ⟨0, _⟩ => show win1_2.index t (0 : Fin 2) * 5000 + 1 * (x 0).val = (k 0).val; rw [e0, hk0]; omega
  | ⟨1, _⟩ => show win1_2.index t (1 : Fin 2) * 1 + 1 * (x 1).val = (k 1).val; rw [e1, hk1]; omega

/-- What point t writes back is block t of the whole-array function. -/
theorem flushed1_eq (c : Dev nD) (t : Fin cfg1.N) :
    (dat1 (F := Ideal) V c).flushed 3 t
      = ((cfg1.win 3).blk t).view.read (Elt Ideal) (scaled1 (V c main_v32) (V c main_arg5) (V c main_v15)) := by
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S64x64) hz, View.ld_unit_zero (S := S5000x1) hz]
  obtain ⟨-, -, -, -, -, -, e0, e1⟩ := idx_facts1 t
  have hN : t.val < 20 := lt_of_lt_of_eq t.isLt N_1
  funext y
  obtain ⟨r, q, rfl⟩ : ∃ (r : Fin 5000) (q : Fin 64), y = ix2 r q := ⟨y 0, y 1, eq_ix2 y⟩
  refine (pay1_apply (iblk1 V c 0 t) (iblk1 V c 1 t) (iblk1 V c 2 t) r q).trans ?_
  have hemb : ((cfg1.win 3).blk t).view.emb (ix2 r q) = ix2 (⟨5000 * t.val + r.val, by omega⟩ : Fin 100000) q := by
    funext a
    apply Fin.ext
    match a with
    | ⟨0, _⟩ => show win1_3.index t (0 : Fin 2) * 5000 + 1 * r.val = 5000 * t.val + r.val; rw [e0]; omega
    | ⟨1, _⟩ => show win1_3.index t (1 : Fin 2) * 64 + 1 * q.val = q.val; rw [e1]; omega
  rw [View.read_apply, hemb, scaled1_apply]
  rw [iblk1_2_apply V c t (ix2 r (0 : Fin 1)) (ix2 (⟨5000 * t.val + r.val, by omega⟩ : Fin 100000) (0 : Fin 1)) rfl rfl]
  refine congrArg (· * _) (Finset.sum_congr rfl fun k _ => ?_)
  rw [iblk1_0_apply V c t (ix2 r k) (ix2 (⟨5000 * t.val + r.val, by omega⟩ : Fin 100000) k) rfl rfl, iblk1_1_apply V c t (ix2 k q)]

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v33).slice (win1_3.rect t)).set ↔ _
  rw [View.set_slice_whole, Rect.mem_set_unit]
  exact Iff.rfl

/-- Every index of the output array is in the block of the point its row falls in: row p is in block p / 5000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, lt_of_lt_of_eq (by omega) N_1.symm⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 64 ≤ (i 1).val ∧ (i 1).val < win1_3.index t (1 : Fin 2) * 64 + 64; rw [e1]; omega

/-- The output array after the region is the whole-array function of the arrays the region finds. -/
theorem final1 (c : Dev nD) :
    (dat1 (F := Ideal) V c).arrAt 3 cfg1.N = scaled1 (V c main_v32) (V c main_arg5) (V c main_v15) :=
  (dat1 (F := Ideal) V c).arrAt_eq_of_cover 3 (scaled1 (V c main_v32) (V c main_arg5) (V c main_v15))
    (fun t _ => flushed1_eq V c t) cover1

/-- Region 1's output at row p and column q: the p-th row of x times the q-th column of W, scaled by d at row p. -/
theorem scaled1_value (c : Dev nD) (p : Fin 100000) (q : Fin 64) :
    (dat1 (F := Ideal) V c).arrAt 3 cfg1.N (ix2 p q) = scaledAt1 (V c main_v32) (V c main_arg5) (V c main_v15) p q := by
  rw [final1]
  rfl

end

end Cert.KernelIdeal.RegionValue

end
-- ==== Proof.RegionScaled2.lean ====
/-
  The third scaled-product region read as a whole array: the product of the rows of x with the columns of W, each row scaled by its entry of the column d. Each grid point's stored block is rows 5000 t to 5000 t + 4999 of that array, and the twenty blocks cover it.
-/
import proofs.«132979_j77120432767264_2_alg».proof.Proof.Gen.KernelIdeal.Frame
import proofs.«132979_j77120432767264_2_alg».proof.Proof.LibDotIx2
import proofs.«132979_j77120432767264_2_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-- The zero offset of a block's accesses. -/
private theorem hz : (![0, 0] : Fin 2 → Nat) = fun _ => 0 := funext fun a => by fin_cases a <;> rfl

/-! # Region 2: the scaled product, blocks of 5000 rows to the whole array -/

/-- The region's contraction is a plain 5000 x 64 by 64 x 64 product. -/
theorem plainDot2 : PlainDot dot_S5000x64_S64x64_S5000x64_1_0_0_1_n_n where
  rank := rfl
  size := rfl
  l0 := fun _ _ => rfl
  l1 := fun _ _ => rfl
  r0 := fun _ _ => rfl
  r1 := fun _ _ => rfl

/-- The body's stored value at row r and column q of a block: the row of x times the column of W, scaled by the row's entry of d
    (the changes of float format are the identity on extended reals). -/
theorem pay2_apply (x0 : Vec Ideal S5000x64 .f32) (x1 : Vec Ideal S64x64 .f32) (x2 : Vec Ideal S5000x1 .f32)
    (r : Fin 5000) (q : Fin 64) :
    k2_pay1 x0 x1 x2 (ix2 r q)
      = (∑ k : Fin 64, (x0 (ix2 r k) : EReal) * (x1 (ix2 k q) : EReal)) * (x2 (ix2 r (0 : Fin 1)) : EReal) := by
  unfold k2_pay1
  rw [truncf_apply, mulf_apply, shapeCast_self, broadcastTo_a1_ab_apply, shapeCast_self]
  exact congrArg (· * (x2 (ix2 r (0 : Fin 1)) : EReal)) (matmul_zero_ix2_any plainDot2 none _ _ r q)

/-- Row p of X times column q of W, scaled by D at row p. -/
abbrev scaledAt2 (X : S100000x64.Idx → EReal) (W : S64x64.Idx → EReal) (D : S100000x1.Idx → EReal) (p : Fin 100000) (q : Fin 64) : EReal :=
  (∑ j : Fin 64, X (ix2 p j) * W (ix2 j q)) * D (ix2 p (0 : Fin 1))

/-- The same as a whole array. -/
def scaled2 (X : S100000x64.Idx → EReal) (W : S64x64.Idx → EReal) (D : S100000x1.Idx → EReal) : S100000x64.Idx → EReal :=
  fun i => scaledAt2 X W D (i 0) (i 1)

theorem scaled2_apply (X : S100000x64.Idx → EReal) (W : S64x64.Idx → EReal) (D : S100000x1.Idx → EReal) (p : Fin 100000) (q : Fin 64) :
    scaled2 X W D (ix2 p q) = (∑ j : Fin 64, X (ix2 p j) * W (ix2 j q)) * D (ix2 p (0 : Fin 1)) := rfl

section
variable (V : (c : Dev nD) → (b : Ref sig .tc) → Buf (Elt Ideal) ((c : Thread nD τ).loc b))

/-- The printed index maps over the grid: the row-blocked windows are at block t, the weight window at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Window 0's block at point t is rows 5000 t … 5000 t + 4999 of x. -/
theorem iblk2_0_apply (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .f32) x = (V c main_v49 : S100000x64.Idx → EReal) k := by
  obtain ⟨e0, e1, -⟩ := idx_facts2 t
  unfold iblk2
  rw [View.read_apply]
  show V c main_v49 _ = V c main_v49 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 64 + 1 * (x 1).val = (k 1).val; rw [e1, hk1]; omega

/-- Window 1's block at every point is the whole of W. -/
theorem iblk2_1_apply (c : Dev nD) (t : Fin cfg2.N) (x : S64x64.Idx) :
    (iblk2 V c 1 t : Vec Ideal S64x64 .f32) x = (V c main_arg7 : S64x64.Idx → EReal) x := by
  obtain ⟨-, -, e0, e1, -⟩ := idx_facts2 t
  unfold iblk2
  rw [View.read_apply]
  show V c main_arg7 _ = V c main_arg7 _
  congr 1
  funext a
  apply Fin.ext
  match a with
  | ⟨0, _⟩ => show win2_1.index t (0 : Fin 2) * 64 + 1 * (x 0).val = (x 0).val; rw [e0]; omega
  | ⟨1, _⟩ => show win2_1.index t (1 : Fin 2) * 64 + 1 * (x 1).val = (x 1).val; rw [e1]; omega

/-- Window 2's block at point t is rows 5000 t … 5000 t + 4999 of d. -/
theorem iblk2_2_apply (c : Dev nD) (t : Fin cfg2.N) (x : S5000x1.Idx) (k : S100000x1.Idx)
    (hk0 : (k 0).val = 5000 * t.val + (x 0).val) (hk1 : (k 1).val = (x 1).val) :
    (iblk2 V c 2 t : Vec Ideal S5000x1 .f32) x = (V c main_v15 : S100000x1.Idx → EReal) k := by
  obtain ⟨-, -, -, -, e0, e1, -⟩ := idx_facts2 t
  unfold iblk2
  rw [View.read_apply]
  show V c main_v15 _ = V c main_v15 _
  congr 1
  funext a
  apply Fin.ext
  match a with
  | ⟨0, _⟩ => show win2_2.index t (0 : Fin 2) * 5000 + 1 * (x 0).val = (k 0).val; rw [e0, hk0]; omega
  | ⟨1, _⟩ => show win2_2.index t (1 : Fin 2) * 1 + 1 * (x 1).val = (k 1).val; rw [e1, hk1]; omega

/-- What point t writes back is block t of the whole-array function. -/
theorem flushed2_eq (c : Dev nD) (t : Fin cfg2.N) :
    (dat2 (F := Ideal) V c).flushed 3 t
      = ((cfg2.win 3).blk t).view.read (Elt Ideal) (scaled2 (V c main_v49) (V c main_arg7) (V c main_v15)) := by
  show (cfg2.win 3).cut (grid2.coords t) ((dat2 (F := Ideal) V c).after 3 t) = _
  rw [after2_3]
  unfold out2_3
  rw [View.canon_unit_zero hz]
  simp only [View.ld_unit_zero (S := S5000x64) hz, View.ld_unit_zero (S := S64x64) hz, View.ld_unit_zero (S := S5000x1) hz]
  obtain ⟨-, -, -, -, -, -, e0, e1⟩ := idx_facts2 t
  have hN : t.val < 20 := lt_of_lt_of_eq t.isLt N_2
  funext y
  obtain ⟨r, q, rfl⟩ : ∃ (r : Fin 5000) (q : Fin 64), y = ix2 r q := ⟨y 0, y 1, eq_ix2 y⟩
  refine (pay2_apply (iblk2 V c 0 t) (iblk2 V c 1 t) (iblk2 V c 2 t) r q).trans ?_
  have hemb : ((cfg2.win 3).blk t).view.emb (ix2 r q) = ix2 (⟨5000 * t.val + r.val, by omega⟩ : Fin 100000) q := by
    funext a
    apply Fin.ext
    match a with
    | ⟨0, _⟩ => show win2_3.index t (0 : Fin 2) * 5000 + 1 * r.val = 5000 * t.val + r.val; rw [e0]; omega
    | ⟨1, _⟩ => show win2_3.index t (1 : Fin 2) * 64 + 1 * q.val = q.val; rw [e1]; omega
  rw [View.read_apply, hemb, scaled2_apply]
  rw [iblk2_2_apply V c t (ix2 r (0 : Fin 1)) (ix2 (⟨5000 * t.val + r.val, by omega⟩ : Fin 100000) (0 : Fin 1)) rfl rfl]
  refine congrArg (· * _) (Finset.sum_congr rfl fun k _ => ?_)
  rw [iblk2_0_apply V c t (ix2 r k) (ix2 (⟨5000 * t.val + r.val, by omega⟩ : Fin 100000) k) rfl rfl, iblk2_1_apply V c t (ix2 k q)]

/-- An index of the output array is in point t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v50).slice (win2_3.rect t)).set ↔ _
  rw [View.set_slice_whole, Rect.mem_set_unit]
  exact Iff.rfl

/-- Every index of the output array is in the block of the point its row falls in: row p is in block p / 5000. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 5000 := ⟨⟨(i 0).val / 5000, lt_of_lt_of_eq (by omega) N_2.symm⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 64 ≤ (i 1).val ∧ (i 1).val < win2_3.index t (1 : Fin 2) * 64 + 64; rw [e1]; omega

/-- The output array after the region is the whole-array function of the arrays the region finds. -/
theorem final2 (c : Dev nD) :
    (dat2 (F := Ideal) V c).arrAt 3 cfg2.N = scaled2 (V c main_v49) (V c main_arg7) (V c main_v15) :=
  (dat2 (F := Ideal) V c).arrAt_eq_of_cover 3 (scaled2 (V c main_v49) (V c main_arg7) (V c main_v15))
    (fun t _ => flushed2_eq V c t) cover2

/-- Region 2's output at row p and column q: the p-th row of x times the q-th column of W, scaled by d at row p. -/
theorem scaled2_value (c : Dev nD) (p : Fin 100000) (q : Fin 64) :
    (dat2 (F := Ideal) V c).arrAt 3 cfg2.N (ix2 p q) = scaledAt2 (V c main_v49) (V c main_arg7) (V c main_v15) p q := by
  rw [final2]
  rfl

end

end Cert.KernelIdeal.RegionValue

end
-- ==== Proof.RegionPlain.lean ====
/-
  The plain-product region read as a whole array: the product of the rows of x with the columns of W. The grid has one point, whose stored block is the whole array.
-/
import proofs.«132979_j77120432767264_2_alg».proof.Proof.Gen.KernelIdeal.Frame
import proofs.«132979_j77120432767264_2_alg».proof.Proof.LibDotIx2
import proofs.«132979_j77120432767264_2_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-- The zero offset of a block's accesses. -/
private theorem hz : (![0, 0] : Fin 2 → Nat) = fun _ => 0 := funext fun a => by fin_cases a <;> rfl

/-! # Region 3: the plain product, one block that is the whole array -/

/-- The region's contraction is a plain 1024 x 64 by 64 x 10 product. -/
theorem plainDot3 : PlainDot dot_S1024x64_S64x10_S1024x10_1_0_0_1_n_n where
  rank := rfl
  size := rfl
  l0 := fun _ _ => rfl
  l1 := fun _ _ => rfl
  r0 := fun _ _ => rfl
  r1 := fun _ _ => rfl

/-- The body's stored value at row r and column q: the row of x times the column of W
    (the changes of float format are the identity on extended reals). -/
theorem pay3_apply (x0 : Vec Ideal S1024x64 .f32) (x1 : Vec Ideal S64x10 .f32) (r : Fin 1024) (q : Fin 10) :
    k3_pay1 x0 x1 (ix2 r q) = ∑ k : Fin 64, (x0 (ix2 r k) : EReal) * (x1 (ix2 k q) : EReal) := by
  unfold k3_pay1
  rw [shapeCast_self]
  exact matmul_zero_ix2_any plainDot3 none _ _ r q

/-- Row p of X times column q of W. -/
abbrev plainAt (X : S1024x64.Idx → EReal) (W : S64x10.Idx → EReal) (p : Fin 1024) (q : Fin 10) : EReal :=
  ∑ j : Fin 64, X (ix2 p j) * W (ix2 j q)

/-- The same as a whole array. -/
def plain (X : S1024x64.Idx → EReal) (W : S64x10.Idx → EReal) : S1024x10.Idx → EReal :=
  fun i => plainAt X W (i 0) (i 1)

theorem plain_apply (X : S1024x64.Idx → EReal) (W : S64x10.Idx → EReal) (p : Fin 1024) (q : Fin 10) :
    plain X W (ix2 p q) = ∑ j : Fin 64, X (ix2 p j) * W (ix2 j q) := rfl

section
variable (V : (c : Dev nD) → (b : Ref sig .tc) → Buf (Elt Ideal) ((c : Thread nD τ).loc b))

/-- The printed index maps over the one-point grid: every window is at block 0 on both axes. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- Window 0's block is the whole of x. -/
theorem iblk3_0_apply (c : Dev nD) (t : Fin cfg3.N) (x : S1024x64.Idx) :
    (iblk3 V c 0 t : Vec Ideal S1024x64 .f32) x = (V c main_v78 : S1024x64.Idx → EReal) x := by
  obtain ⟨e0, e1, -⟩ := idx_facts3 t
  unfold iblk3
  rw [View.read_apply]
  show V c main_v78 _ = V c main_v78 _
  congr 1
  funext a
  apply Fin.ext
  match a with
  | ⟨0, _⟩ => show win3_0.index t (0 : Fin 2) * 1024 + 1 * (x 0).val = (x 0).val; rw [e0]; omega
  | ⟨1, _⟩ => show win3_0.index t (1 : Fin 2) * 64 + 1 * (x 1).val = (x 1).val; rw [e1]; omega

/-- Window 1's block is the whole of W. -/
theorem iblk3_1_apply (c : Dev nD) (t : Fin cfg3.N) (x : S64x10.Idx) :
    (iblk3 V c 1 t : Vec Ideal S64x10 .f32) x = (V c main_arg9 : S64x10.Idx → EReal) x := by
  obtain ⟨-, -, e0, e1, -⟩ := idx_facts3 t
  unfold iblk3
  rw [View.read_apply]
  show V c main_arg9 _ = V c main_arg9 _
  congr 1
  funext a
  apply Fin.ext
  match a with
  | ⟨0, _⟩ => show win3_1.index t (0 : Fin 2) * 64 + 1 * (x 0).val = (x 0).val; rw [e0]; omega
  | ⟨1, _⟩ => show win3_1.index t (1 : Fin 2) * 10 + 1 * (x 1).val = (x 1).val; rw [e1]; omega

/-- What the one point writes back is the whole-array function read through its block. -/
theorem flushed3_eq (c : Dev nD) (t : Fin cfg3.N) :
    (dat3 (F := Ideal) V c).flushed 2 t
      = ((cfg3.win 2).blk t).view.read (Elt Ideal) (plain (V c main_v78) (V c main_arg9)) := by
  show (cfg3.win 2).cut (grid3.coords t) ((dat3 (F := Ideal) V c).after 2 t) = _
  rw [after3_2]
  unfold out3_2
  rw [View.canon_unit_zero hz]
  simp only [View.ld_unit_zero (S := S1024x64) hz, View.ld_unit_zero (S := S64x10) hz]
  obtain ⟨-, -, -, -, e0, e1⟩ := idx_facts3 t
  funext y
  obtain ⟨r, q, rfl⟩ : ∃ (r : Fin 1024) (q : Fin 10), y = ix2 r q := ⟨y 0, y 1, eq_ix2 y⟩
  refine (pay3_apply (iblk3 V c 0 t) (iblk3 V c 1 t) r q).trans ?_
  have hemb : ((cfg3.win 2).blk t).view.emb (ix2 r q) = ix2 r q := by
    funext a
    apply Fin.ext
    match a with
    | ⟨0, _⟩ => show win3_2.index t (0 : Fin 2) * 1024 + 1 * r.val = r.val; rw [e0]; omega
    | ⟨1, _⟩ => show win3_2.index t (1 : Fin 2) * 10 + 1 * q.val = q.val; rw [e1]; omega
  rw [View.read_apply, hemb, plain_apply]
  refine Finset.sum_congr rfl fun k _ => ?_
  rw [iblk3_0_apply V c t (ix2 r k), iblk3_1_apply V c t (ix2 k q)]

/-- An index of the output array is in the point's block iff each coordinate is in the block's range on its axis. -/
theorem mem_blk3 (t : Fin cfg3.N) (i : S1024x10.Idx) :
    i ∈ ((cfg3.win 2).blk t).view.set ↔ ∀ a : Fin 2, win3_2.index t a * S1024x10.size a ≤ (i a).val ∧ (i a).val < win3_2.index t a * S1024x10.size a + S1024x10.size a := by
  show i ∈ ((View.whole main_v79).slice (win3_2.rect t)).set ↔ _
  rw [View.set_slice_whole, Rect.mem_set_unit]
  exact Iff.rfl

/-- Every index of the output array is in the one point's block. -/
theorem cover3 (i : S1024x10.Idx) : ∃ t : Fin cfg3.N, (cfg3.win 2).flush t = true ∧ i ∈ ((cfg3.win 2).blk t).view.set := by
  have hi0 : (i 0).val < 1024 := (i 0).isLt
  have hi1 : (i 1).val < 10 := (i 1).isLt
  obtain ⟨-, -, -, -, e0, e1⟩ := idx_facts3 t3_0
  refine ⟨t3_0, flush3_2 t3_0, ?_⟩
  rw [mem_blk3]
  intro a
  match a with
  | ⟨0, _⟩ => show win3_2.index t3_0 (0 : Fin 2) * 1024 ≤ (i 0).val ∧ (i 0).val < win3_2.index t3_0 (0 : Fin 2) * 1024 + 1024; rw [e0]; omega
  | ⟨1, _⟩ => show win3_2.index t3_0 (1 : Fin 2) * 10 ≤ (i 1).val ∧ (i 1).val < win3_2.index t3_0 (1 : Fin 2) * 10 + 10; rw [e1]; omega

/-- The output array after the region is the whole-array function of the arrays the region finds. -/
theorem final3 (c : Dev nD) :
    (dat3 (F := Ideal) V c).arrAt 2 cfg3.N = plain (V c main_v78) (V c main_arg9) :=
  (dat3 (F := Ideal) V c).arrAt_eq_of_cover 2 (plain (V c main_v78) (V c main_arg9))
    (fun t _ => flushed3_eq V c t) cover3

/-- Region 3's output at row p and column q: the p-th row of x times the q-th column of W. -/
theorem plain_value (c : Dev nD) (p : Fin 1024) (q : Fin 10) :
    (dat3 (F := Ideal) V c).arrAt 2 cfg3.N (ix2 p q) = plainAt (V c main_v78) (V c main_arg9) p q := by
  rw [final3]
  rfl

end

end Cert.KernelIdeal.RegionValue

end
-- ==== Proof.KernelValue.lean ====
/-
  What the kernel's program leaves in its result buffer, stage by stage, as the reference's own stages of the arguments.

  The program is four regions among stretches of host operations. Each of the first three regions writes a dense projection
  already scaled row by row by the node weights (blocks of 5000 rows, each the block's rows of x times W, scaled by the
  block's weights, together the whole array); the stretch after it takes edge rows, sums them into their targets and scales by the
  target's weight, which is the reference's layer (the law of GcnAlgebra through the layer-tail bridge). After the third
  layer both programs average the rows over each graph by the same operations; the last region is the plain product with
  the output weights, and the last stretch adds the output bias.
-/
import proofs.«132979_j77120432767264_2_alg».proof.Proof.KernelHostReads
import proofs.«132979_j77120432767264_2_alg».proof.Proof.KernelWeights
import proofs.«132979_j77120432767264_2_alg».proof.Proof.KernelRun
import proofs.«132979_j77120432767264_2_alg».proof.Proof.LayerBridge
import proofs.«132979_j77120432767264_2_alg».proof.Proof.RefStages
import proofs.«132979_j77120432767264_2_alg».proof.Proof.RegionScaled0
import proofs.«132979_j77120432767264_2_alg».proof.Proof.RegionScaled1
import proofs.«132979_j77120432767264_2_alg».proof.Proof.RegionScaled2
import proofs.«132979_j77120432767264_2_alg».proof.Proof.RegionPlain

set_option maxRecDepth 16384

noncomputable section

open scoped BigOperators

namespace Cert.KernelIdeal.Result

open Idealize.ShloMosaic Idealize.ShloMosaic.TcCoe Idealize.ShloMosaic.ValueIdx
open Idealize.SL Idealize.SL.Sem
open Cert.KernelIdeal Cert.KernelIdeal.Gen Cert.KernelIdeal.Carry Cert.KernelIdeal.HostReads Cert.KernelIdeal.RegionValue Cert.Bridge
open Cert.ReferenceIdeal.Read

variable (m : (ℓ : Loc nD τ sig) → Buf (Elt Ideal) ℓ) (ρ : Dev nD → PrngReg) (c : Dev nD)

/-! ## Layer 1 -/

set_option maxHeartbeats 4000000 in
/-- Region 0's array: row p of the layer's dense projection, scaled by node p's weight. -/
theorem proj1_scaled (p : Fin 100000) (q : Fin 64) :
    (W4 m ρ c (Proc.devRef .tc main_v16) : S100000x64.Idx → EReal) (ix2 p q)
      = val_main_v15 (F := Ideal) (m ((c : Thread nD τ).loc main_arg0)) (m ((c : Thread nD τ).loc main_arg3)) (ix2 p q) * val_main_v14 (F := Ideal) (m ((c : Thread nD τ).loc main_arg1)) (ix1 p) := by
  have ex : V3 m ρ c main_arg0 = m ((c : Thread nD τ).loc main_arg0) := at3_main_arg0 m ρ c
  have ew : V3 m ρ c main_arg3 = m ((c : Thread nD τ).loc main_arg3) := at3_main_arg3 m ρ c
  have ed : V3 m ρ c main_v15 = dcol (m ((c : Thread nD τ).loc main_arg1)) := wcol_at3 m ρ c
  rw [show W4 m ρ c (Proc.devRef .tc main_v16) = (dat0 (V3 m ρ) c).arrAt 3 cfg0.N from W4_arr m ρ c 3, scaled0_value,
    ex, ew, ed, proj1_ix, ← dcol_ix]

/-- The first layer's output is the reference's. -/
theorem layer1_ok : W5 m ρ c (Proc.devRef .tc main_v32) = val_main_v46 (F := Ideal) (m ((c : Thread nD τ).loc main_arg0)) (m ((c : Thread nD τ).loc main_arg1)) (m ((c : Thread nD τ).loc main_arg3)) (m ((c : Thread nD τ).loc main_arg4)) := by
  have e3 := (at4_main_v3 m ρ c).trans (src_at1 m ρ c)
  have e6 := (at4_main_v6 m ρ c).trans (tgt_at1 m ρ c)
  have e15 := (at4_main_v15 m ρ c).trans (wcol_at3 m ρ c)
  have eb := at4_main_arg4 m ρ c
  refine (layer1_at5 m ρ c).trans ?_
  rw [e3, e6, e15, eb, layer1_eq]
  exact tail_bridge _ _ _ _ (proj1_scaled m ρ c)

/-! ## Layer 2 -/

set_option maxHeartbeats 4000000 in
/-- Region 1's array: row p of the layer's dense projection, scaled by node p's weight. -/
theorem proj2_scaled (p : Fin 100000) (q : Fin 64) :
    (W6 m ρ c (Proc.devRef .tc main_v33) : S100000x64.Idx → EReal) (ix2 p q)
      = val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 p q) * val_main_v14 (F := Ideal) (m ((c : Thread nD τ).loc main_arg1)) (ix1 p) := by
  have ex : V5 m ρ c main_v32 = val_main_v46 (F := Ideal) (m ((c : Thread nD τ).loc main_arg0)) (m ((c : Thread nD τ).loc main_arg1)) (m ((c : Thread nD τ).loc main_arg3)) (m ((c : Thread nD τ).loc main_arg4)) := layer1_ok m ρ c
  have ew : V5 m ρ c main_arg5 = m ((c : Thread nD τ).loc main_arg5) := at5_main_arg5 m ρ c
  have ed : V5 m ρ c main_v15 = dcol (m ((c : Thread nD τ).loc main_arg1)) := (at5_main_v15 m ρ c).trans (wcol_at3 m ρ c)
  rw [show W6 m ρ c (Proc.devRef .tc main_v33) = (dat1 (V5 m ρ) c).arrAt 3 cfg1.N from W6_arr m ρ c 3, scaled1_value,
    ex, ew, ed, proj2_ix, ← dcol_ix]

/-- The second layer's output is the reference's. -/
theorem layer2_ok : W7 m ρ c (Proc.devRef .tc main_v49) = val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have e3 := (at6_main_v3 m ρ c).trans (src_at1 m ρ c)
  have e6 := (at6_main_v6 m ρ c).trans (tgt_at1 m ρ c)
  have e15 := (at6_main_v15 m ρ c).trans (wcol_at3 m ρ c)
  have eb := at6_main_arg6 m ρ c
  refine (layer2_at7 m ρ c).trans ?_
  rw [e3, e6, e15, eb, layer2_eq]
  exact tail_bridge _ _ _ _ (proj2_scaled m ρ c)

/-! ## Layer 3 and the mean over each graph -/

set_option maxHeartbeats 4000000 in
/-- Region 2's array: row p of the layer's dense projection, scaled by node p's weight. -/
theorem proj3_scaled (p : Fin 100000) (q : Fin 64) :
    (W8 m ρ c (Proc.devRef .tc main_v50) : S100000x64.Idx → EReal) (ix2 p q)
      = val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (ix2 p q) * val_main_v14 (F := Ideal) (m ((c : Thread nD τ).loc main_arg1)) (ix1 p) := by
  have ex : V7 m ρ c main_v49 = val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := layer2_ok m ρ c
  have ew : V7 m ρ c main_arg7 = m ((c : Thread nD τ).loc main_arg7) := at7_main_arg7 m ρ c
  have ed : V7 m ρ c main_v15 = dcol (m ((c : Thread nD τ).loc main_arg1)) := (at7_main_v15 m ρ c).trans (wcol_at3 m ρ c)
  rw [show W8 m ρ c (Proc.devRef .tc main_v50) = (dat2 (V7 m ρ) c).arrAt 3 cfg2.N from W8_arr m ρ c 3, scaled2_value,
    ex, ew, ed, proj3_ix, ← dcol_ix]

set_option maxHeartbeats 4000000 in
/-- The pooled rows are the reference's. -/
theorem pooled_ok : W9 m ρ c (Proc.devRef .tc main_v78) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e3 := (at8_main_v3 m ρ c).trans (src_at1 m ρ c)
  have e6 := (at8_main_v6 m ρ c).trans (tgt_at1 m ρ c)
  have e15 := (at8_main_v15 m ρ c).trans (wcol_at3 m ρ c)
  have eb := at8_main_arg8 m ρ c
  have e2 := at8_main_arg2 m ρ c
  have hb := tail_bridge (m ((c : Thread nD τ).loc main_arg1)) (m ((c : Thread nD τ).loc main_arg8)) _ _ (proj3_scaled m ρ c)
  refine (pooled_at9 m ρ c).trans ?_
  rw [e3, e6, e15, eb, e2, hb, pooled_eq, layer3_eq]

/-! ## The result -/

set_option maxHeartbeats 4000000 in
/-- The last region's array: row p of the pooled rows times column q of the output weights. -/
theorem proj4_plain (p : Fin 1024) (q : Fin 10) :
    (W10 m ρ c (Proc.devRef .tc main_v79) : S1024x10.Idx → EReal) (ix2 p q)
      = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 p q) := by
  have ex : V9 m ρ c main_v78 = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := pooled_ok m ρ c
  have ew : V9 m ρ c main_arg9 = m ((c : Thread nD τ).loc main_arg9) := at9_main_arg9 m ρ c
  rw [show W10 m ρ c (Proc.devRef .tc main_v79) = (dat3 (V9 m ρ) c).arrAt 2 cfg3.N from W10_arr m ρ c 2, plain_value, ex, ew, proj4_ix]

set_option maxHeartbeats 4000000 in
/-- The result buffer holds the reference's result. -/
theorem result_ok : W11 m ρ c (Proc.devRef .tc main_v82) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have eb := at10_main_arg10 m ρ c
  have h79 : W10 m ρ c (Proc.devRef .tc main_v79) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
    funext i
    obtain ⟨p, q, rfl⟩ : ∃ (p : Fin 1024) (q : Fin 10), i = ix2 p q := ⟨i 0, i 1, eq_ix2 i⟩
    exact proj4_plain m ρ c p q
  refine (result_at11 m ρ c).trans ?_
  rw [eb, h79]
  rfl

/-- THE KERNEL'S RUN WITH ITS VALUE: every weakly fair execution terminates, without a fault, with the result buffer at the
    reference's composed function of the argument arrays, and the arguments as launched. -/
theorem run_value : θ_run defs (onTc (τ := τ) (main (F := Ideal))) ⟨m, fun _ => 0, ρ⟩ (fun r => ∀ c : Dev nD,
      r.2.mem ((c.tc : Thread nD τ).loc main_v82) = val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_ok m ρ c), (h c).2⟩) (Cert.KernelIdeal.RunValue.run_result m ρ)

end Cert.KernelIdeal.Result

end
-- ==== Proof.lean ====
/-
  The certificate of a three-layer graph convolution network with a mean pool and a dense output layer: the kernel's program
  (four pipelined regions — three dense projections whose epilogue scales each row by its node's weight, one plain product —
  among host gathers and scatters) against the plain array program.

  Per layer the reference computes  out[t] = Σ_{e : target e = t} (h W)[source e] · (d[source e] · d[target e]) + b  and the
  kernel  out[t] = d[t] · Σ_{e : target e = t} ((h W)[source e] · d[source e]) + b,  with d = 1/sqrt(degree) (0 at degree 0).
  The weight d[t] is a nonnegative real, and a nonnegative real factor distributes over any finite sum of extended reals, so
  the two agree entry by entry whatever the node rows hold: the finiteness of the inputs is never used. Changes of float
  format are the identity at the extended reals, so the rounding of the projections to a narrower format disappears, and a
  matrix-unit product into zeros is the host's contraction. After the third layer both programs run the same operations
  (sum per graph, count per graph, divide), and the last product and bias are read entry by entry.

  The three frames: the kernel's two are the generated frame runs; the reference's is its run with the result dropped.
  No operation was rewritten by the idealization, so there is nothing to preserve.
-/
import proofs.«132979_j77120432767264_2_alg».proof.Defs
import proofs.«132979_j77120432767264_2_alg».proof.Proof.Gen.Kernel
import proofs.«132979_j77120432767264_2_alg».proof.Proof.Gen.Kernel.Frame
import proofs.«132979_j77120432767264_2_alg».proof.Proof.Gen.KernelIdeal
import proofs.«132979_j77120432767264_2_alg».proof.Proof.Gen.KernelIdeal.Frame
import proofs.«132979_j77120432767264_2_alg».proof.Proof.Gen.ReferenceIdeal
import proofs.«132979_j77120432767264_2_alg».proof.Proof.Gen.Pre_finite_inputs
import proofs.«132979_j77120432767264_2_alg».proof.Proof.RefRead
import proofs.«132979_j77120432767264_2_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel's result buffer
    holds the reference's composed function of the arguments (Result.run_value), and the reference's run ends at that
    function of its own, equal, arguments. -/
theorem algebraic : Cert.algebraic_KernelIdeal_ReferenceIdeal := by
  intro m ρ m' ρ' _ hagree
  refine ⟨_, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v126_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
